-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x1 : Shape := ⟨2, ![8388608, 1]⟩
abbrev S8388608 : Shape := ⟨1, ![8388608]⟩
abbrev S_ : Shape := ⟨0, ![]⟩

class Facts : Prop where
  bcast_S_S8388608x1 : S_.BroadcastsInDim S8388608x1 (![] : Fin 0 → Fin S8388608x1.rank)
  reducesTo_S8388608x1_S_d0_1 : S8388608x1.ReducesTo [0, 1] S_
  h_S_ : 0 < S_.numel

variable [Facts]

def fn {F : FTy → Type} [FloatOps F] (main_arg0 : FVec F S8388608x1 .f32) (main_arg1 : FVec F S8388608x1 .f32) (main_arg2 : IVec S8388608 32) : IVec S_ 1 :=
  let main_v0 : FVec F S8388608x1 .f32 := Host.absf main_arg0
  let main_cst : FVec F S_ .f32 := constant S_ .f32 0x7F800000#32
  let main_v1 : FVec F S8388608x1 .f32 := broadcastInDim S8388608x1 ![] bcast_S_S8388608x1 main_cst
  let main_v2 : IVec S8388608x1 1 := cmpf .olt main_v0 main_v1
  let main_c : IVec S_ 1 := constantI S_ 1 1#1
  let main_v3 : IVec S_ 1 := (fun x v => Host.reduce IntOp.andi x v reducesTo_S8388608x1_S_d0_1 h_S_) main_v2 main_c
  let main_v4 : FVec F S8388608x1 .f32 := Host.absf main_arg1
  let main_cst_0 : FVec F S_ .f32 := constant S_ .f32 0x7F800000#32
  let main_v5 : FVec F S8388608x1 .f32 := broadcastInDim S8388608x1 ![] bcast_S_S8388608x1 main_cst_0
  let main_v6 : IVec S8388608x1 1 := cmpf .olt main_v4 main_v5
  let main_c_1 : IVec S_ 1 := constantI S_ 1 1#1
  let main_v7 : IVec S_ 1 := (fun x v => Host.reduce IntOp.andi x v reducesTo_S8388608x1_S_d0_1 h_S_) main_v6 main_c_1
  let main_v8 : IVec S_ 1 := andi main_v3 main_v7
  main_v8
-- ==== Kernel.lean ====
abbrev S8388608x1 : Shape := ⟨2, ![8388608, 1]⟩
abbrev S8388608 : Shape := ⟨1, ![8388608]⟩
abbrev S65536x128 : Shape := ⟨2, ![65536, 128]⟩
abbrev S1x1 : Shape := ⟨2, ![1, 1]⟩
abbrev S4096x128 : Shape := ⟨2, ![4096, 128]⟩
abbrev S4096 : Shape := ⟨1, ![4096]⟩
abbrev S4096x1 : Shape := ⟨2, ![4096, 1]⟩
abbrev S1 : Shape := ⟨1, ![1]⟩
abbrev S_ : Shape := ⟨0, ![]⟩

abbrev nBuf : Space → Nat
  | .hbm => 8
  | .vmem => 8
  | .smem => 0
  | _ => 0

abbrev bufTy : (tb : Table) → Fin (tcTables nBuf tb) → BufTy
  | .hbm, ⟨0, _⟩ => ⟨S8388608x1, .f32⟩
  | .hbm, ⟨1, _⟩ => ⟨S8388608x1, .f32⟩
  | .hbm, ⟨2, _⟩ => ⟨S8388608, .i32⟩
  | .hbm, ⟨3, _⟩ => ⟨S65536x128, .f32⟩
  | .hbm, ⟨4, _⟩ => ⟨S65536x128, .f32⟩
  | .hbm, ⟨5, _⟩ => ⟨S65536x128, .i32⟩
  | .hbm, ⟨6, _⟩ => ⟨S1x1, .f32⟩
  | .hbm, ⟨7, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .i32⟩
  | .local _ .vmem, ⟨5, _⟩ => ⟨S4096x128, .i32⟩
  | .local _ .vmem, ⟨6, _⟩ => ⟨S1x1, .f32⟩
  | .local _ .vmem, ⟨7, _⟩ => ⟨S1x1, .f32⟩
  | _, _ => ⟨S8388608x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v35 : BitVec 1 := Scalar.cmpi .eq arg0 c15_i32
  let v36 : BitVec 32 := Scalar.extui v35
  let c0_i32_12 : BitVec 32 := 0#32
  let v37 : BitVec 1 := Scalar.cmpi .ne v36 c0_i32_12
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S8388608x1_S65536x128 : S8388608x1.ShapeCasts S65536x128
  shapeCasts_S8388608_S65536x128 : S8388608.ShapeCasts S65536x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  reduces_S4096x128_S4096 : S4096x128.Reduces [1] S4096
  shapeCasts_S4096_S4096x1 : S4096.ShapeCasts S4096x1
  reduces_S4096x1_S1 : S4096x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S65536x128.size a
  hwx0_0 : ∀ i : grid0.Coords, EltTy.bits .f32 = 32 ∨ (Rect.block (s := S65536x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S65536x128.size a
  hwx0_1 : ∀ i : grid0.Coords, EltTy.bits .f32 = 32 ∨ (Rect.block (s := S65536x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S65536x128.size a
  hwx0_2 : ∀ i : grid0.Coords, EltTy.bits .i32 = 32 ∨ (Rect.block (s := S65536x128) S4096x128.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8388608x1 : Shape := ⟨2, ![8388608, 1]⟩
abbrev S8388608 : Shape := ⟨1, ![8388608]⟩
abbrev S8388608x2 : Shape := ⟨2, ![8388608, 2]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8388608x1, .f32⟩
  | .hbm, ⟨1, _⟩ => ⟨S8388608x1, .f32⟩
  | .hbm, ⟨2, _⟩ => ⟨S8388608, .i32⟩
  | .hbm, ⟨3, _⟩ => ⟨S8388608x2, .f32⟩
  | .hbm, ⟨4, _⟩ => ⟨S_, .f32⟩
  | .hbm, ⟨5, _⟩ => ⟨S8388608, .f32⟩
  | .hbm, ⟨6, _⟩ => ⟨S_, .f32⟩
  | .hbm, ⟨7, _⟩ => ⟨S8388608, .f32⟩
  | .hbm, ⟨8, _⟩ => ⟨S8388608, .f32⟩
  | .hbm, ⟨9, _⟩ => ⟨S8388608x1, .f32⟩
  | .hbm, ⟨10, _⟩ => ⟨S8388608x2, .f32⟩
  | .hbm, ⟨11, _⟩ => ⟨S8388608x2, .f32⟩
  | .hbm, ⟨12, _⟩ => ⟨S8388608x2, .f32⟩
  | .hbm, ⟨13, _⟩ => ⟨S_, .f32⟩
  | .hbm, ⟨14, _⟩ => ⟨S8388608, .f32⟩
  | .hbm, ⟨15, _⟩ => ⟨S8388608x1, .f32⟩
  | .hbm, ⟨16, _⟩ => ⟨S8388608x1, .f32⟩
  | .hbm, ⟨17, _⟩ => ⟨S8388608x2, .f32⟩
  | .hbm, ⟨18, _⟩ => ⟨S8388608x2, .f32⟩
  | .hbm, ⟨19, _⟩ => ⟨S_, .i32⟩
  | .hbm, ⟨20, _⟩ => ⟨S8388608, .i32⟩
  | .hbm, ⟨21, _⟩ => ⟨S8388608, .i1⟩
  | .hbm, ⟨22, _⟩ => ⟨S8388608x1, .f32⟩
  | .hbm, ⟨23, _⟩ => ⟨S8388608, .f32⟩
  | .hbm, ⟨24, _⟩ => ⟨S_, .i32⟩
  | .hbm, ⟨25, _⟩ => ⟨S8388608, .i32⟩
  | .hbm, ⟨26, _⟩ => ⟨S8388608, .i1⟩
  | .hbm, ⟨27, _⟩ => ⟨S8388608x1, .f32⟩
  | .hbm, ⟨28, _⟩ => ⟨S8388608, .f32⟩
  | .hbm, ⟨29, _⟩ => ⟨S_, .f32⟩
  | .hbm, ⟨30, _⟩ => ⟨S_, .f32⟩
  | .hbm, ⟨31, _⟩ => ⟨S8388608, .f32⟩
  | .hbm, ⟨32, _⟩ => ⟨S8388608, .f32⟩
  | .hbm, ⟨33, _⟩ => ⟨S8388608, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | _, _ => ⟨S8388608x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst : Ref sig .tc := ⟨.hbm, 29, rfl⟩
abbrev main_call1_v0 : Ref sig .tc := ⟨.hbm, 30, rfl⟩
abbrev main_call1_v1 : Ref sig .tc := ⟨.hbm, 31, rfl⟩
abbrev main_v10 : Ref sig .tc := ⟨.hbm, 32, rfl⟩
abbrev main_v11 : Ref sig .tc := ⟨.hbm, 33, rfl⟩
abbrev main_cst_1 : Ref sig .tc := ⟨.hbm, 34, rfl⟩
abbrev main_v12 : Ref sig .tc := ⟨.hbm, 35, rfl⟩
abbrev main_cst_2 : Ref sig .tc := ⟨.hbm, 36, rfl⟩
abbrev main_v13 : Ref sig .tc := ⟨.hbm, 37, rfl⟩
abbrev main_v14 : Ref sig .tc := ⟨.hbm, 38, rfl⟩

abbrev nD : Nat := 1
abbrev τ : Topo := Topo.v7x

variable {F : FTy → Type} [FloatOps F]

class Facts₀ : Prop where
  concatenates_S8388608x1_S8388608x1_S8388608x2_d1 : Shape.Concatenates [S8388608x1, S8388608x1] S8388608x2 1
  reducesTo_S8388608x2_S8388608_d1 : S8388608x2.ReducesTo [1] S8388608
  h_S_ : 0 < S_.numel
  bcast_S_S8388608 : S_.BroadcastsInDim S8388608 (![] : Fin 0 → Fin S8388608.rank)
  bcast_S8388608_S8388608x1_0 : S8388608.BroadcastsInDim S8388608x1 (![0] : Fin 1 → Fin S8388608x1.rank)
  bcast_S8388608x1_S8388608x2_0_1 : S8388608x1.BroadcastsInDim S8388608x2 (![0, 1] : Fin 2 → Fin S8388608x2.rank)
  slices_S8388608x2_S8388608x1_0_0 : S8388608x2.Slices ![0, 0] S8388608x1
  shapeCasts_S8388608x1_S8388608 : S8388608x1.ShapeCasts S8388608
  slices_S8388608x2_S8388608x1_0_1 : S8388608x2.Slices ![0, 1] S8388608x1
  reducesTo_S8388608_S_d0 : S8388608.ReducesTo [0] S_

variable [Facts₀]

class Facts : Prop extends Facts₀ where

variable [Facts]
-- ==== Proof.Spec.lean ====
/-
  The labelled log-softmax loss over N = 8388608 samples, as two closed formulas of the three argument arrays.

  A sample has two scores s (synonymy) and a (antonymy) and a label l.  With M = max s a the two-way log-sum-exp is
  M + log (exp (s - M) + exp (a - M)); the sample's contribution is log p(syn) = s - lse when l = 1, log p(ant) = a - lse
  when l = 2, and 0 otherwise.  The loss is minus the mean of the contributions.

  The two programs spell this differently.  One subtracts the whole log-sum-exp from a score (`errK`), sums the
  contributions tile by tile (16 tiles of 4096 rows of 128 lanes, sample (J·4096 + r)·128 + q at row r, lane q of tile J),
  negates the total as 0 - total and multiplies by the word 2^-23 (`kerTotal`).  The other shifts the score by M first and
  then subtracts the logarithm, its inner two-term sum started from the zero word (`errR`), sums all samples at once from
  the zero word, divides by the word 2^23 and negates (`refTotal`).  The arrays are read through total functions of a
  natural-number sample index (`flatF`, `flatL`: zero beyond the last sample), so that both sums range over one index.
-/
import Idealize.ShloMosaic.PureOps.Ideal
import Idealize.ShloMosaic.Lib.ValueIdx

noncomputable section

namespace LabelLoss

open Idealize.ShloMosaic Idealize.ShloMosaic.ValueIdx
open scoped BigOperators

/-- The word of +0.0. -/
abbrev zeroW : EReal := Ideal.ofBits .f32 0x00000000#32
/-- The word of 2^-23 = 1/8388608. -/
abbrev invN : EReal := Ideal.ofBits .f32 0x34000000#32
/-- The word of 2^23 = 8388608. -/
abbrev bigN : EReal := Ideal.ofBits .f32 0x4B000000#32

/-- A sample's contribution, the log-sum-exp subtracted whole. -/
def errK (s a : EReal) (l : BitVec 32) : EReal :=
  Scalar.select (IntOp.cmpi .eq l 1#32)
    (s - (max s a + Ideal.log (Ideal.exp (s - max s a) + Ideal.exp (a - max s a))))
    (Scalar.select (IntOp.cmpi .eq l 2#32)
      (a - (max s a + Ideal.log (Ideal.exp (s - max s a) + Ideal.exp (a - max s a))))
      zeroW)

/-- A sample's contribution, the score shifted by the maximum first, the inner sum started from the zero word. -/
def errR (s a : EReal) (l : BitVec 32) : EReal :=
  Scalar.select (IntOp.cmpi .eq l 1#32)
    ((s - max s a) - Ideal.log (zeroW + (Ideal.exp (s - max s a) + Ideal.exp (a - max s a))))
    (Scalar.select (IntOp.cmpi .eq l 2#32)
      ((a - max s a) - Ideal.log (zeroW + (Ideal.exp (s - max s a) + Ideal.exp (a - max s a))))
      zeroW)

/-- The tile-by-tile total, negated as a difference from the zero word and scaled by the word 2^-23. -/
def kerTotal (s a : ℕ → EReal) (l : ℕ → BitVec 32) : EReal :=
  (zeroW - ∑ J ∈ Finset.range 16, ∑ r : Fin 4096, ∑ q : Fin 128,
      errK (s ((J * 4096 + r.val) * 128 + q.val)) (a ((J * 4096 + r.val) * 128 + q.val)) (l ((J * 4096 + r.val) * 128 + q.val)))
    * invN

/-- The all-at-once total from the zero word, divided by the word 2^23 and negated. -/
def refTotal (s a : ℕ → EReal) (l : ℕ → BitVec 32) : EReal :=
  -(Ideal.div (zeroW + ∑ k : Fin 8388608, errR (s k.val) (a k.val) (l k.val)) bigN)

/-- A [8388608, 1] score array as a function of the sample number, zero beyond the last sample. -/
def flatF (x : (⟨2, ![8388608, 1]⟩ : Shape).Idx → EReal) (n : ℕ) : EReal :=
  if h : n < 8388608 then x (ix2 (⟨n, h⟩ : Fin 8388608) (0 : Fin 1)) else 0

/-- A [8388608] label array as a function of the sample number, the zero word beyond the last sample. -/
def flatL (x : (⟨1, ![8388608]⟩ : Shape).Idx → BitVec 32) (n : ℕ) : BitVec 32 :=
  if h : n < 8388608 then x (ix1 (⟨n, h⟩ : Fin 8388608)) else 0#32

theorem flatF_lt (x : (⟨2, ![8388608, 1]⟩ : Shape).Idx → EReal) (k : Fin 8388608) :
    flatF x k.val = x (ix2 k (0 : Fin 1)) := dif_pos k.isLt

theorem flatL_lt (x : (⟨1, ![8388608]⟩ : Shape).Idx → BitVec 32) (k : Fin 8388608) :
    flatL x k.val = x (ix1 k) := dif_pos k.isLt

end LabelLoss

end
-- ==== Proof.Pieces.lean ====
/-
  What one grid point leaves behind, case by case, as values.

  The body keeps a running total in a one-entry scratch array.  At the first point it stores the zero entry and then
  the zero entry plus the tile's sum; at every later point it stores the previous total plus the tile's sum; at the
  last point it also stores, into the one-entry output block, the total negated and scaled.  Each of these is one
  covering store, so what is left is that store's value computed from the blocks the point was given.
-/
import proofs.«132204_j34213709479939_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First point: the scratch ends at (zero entry) + (tile sum). -/
theorem total_first (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .i32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S4096x128 .f32) (x1 : Vec F S4096x128 .f32) (x2 : Vec F S4096x128 .i32) :
    sout0_A_0 c i arg1 harg1 arg2 harg2 arg3 harg3 arg4 harg4 arg5 harg5 hc0 hc1 x0 x1 x2 = k0_pay3 x0 x1 x2 k0_pay2 := by
  unfold sout0_A_0
  rw [View.read_writes_eq_canon _ _ _ (scover0_A_0 c i arg1 harg1 arg2 harg2 arg3 harg3 arg4 harg4 arg5 harg5 hc0 hc1 x0 x1 x2)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg5.read_unread,
    View.ld_unit_zero (S := S4096x128) hz, View.ld_unit_zero (S := S1x1) hz]

/-- A middle point: the scratch ends at (previous total) + (tile sum). -/
theorem total_middle (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .i32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S4096x128 .f32) (x1 : Vec F S4096x128 .f32) (x2 : Vec F S4096x128 .i32) (xs0 : Vec F S1x1 .f32) :
    sout0_B_0 c i arg1 harg1 arg2 harg2 arg3 harg3 arg4 harg4 arg5 harg5 hc0 hc1 x0 x1 x2 xs0 = k0_pay3 x0 x1 x2 xs0 := by
  unfold sout0_B_0
  rw [View.read_writes_eq_canon _ _ _ (scover0_B_0 c i arg1 harg1 arg2 harg2 arg3 harg3 arg4 harg4 arg5 harg5 hc0 hc1 x0 x1 x2 xs0)]
  unfold kernelRun0_B
  dsimp only
  sl_unfold_words
  rw [View.canon_unit_zero hz]
  simp only [View.readAt_eq_ld, harg1.read_unread, harg2.read_unread, harg3.read_unread, harg5.read_unread,
    View.ld_unit_zero (S := S4096x128) hz, View.ld_unit_zero (S := S1x1) hz]

/-- The last point: the scratch again ends at (previous total) + (tile sum) … -/
theorem total_last (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .i32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S4096x128 .f32) (x1 : Vec F S4096x128 .f32) (x2 : Vec F S4096x128 .i32) (xs0 : Vec F S1x1 .f32) :
    sout0_C_0 c i arg1 harg1 arg2 harg2 arg3 harg3 arg4 harg4 arg5 harg5 hc0 hc1 x0 x1 x2 xs0 = k0_pay3 x0 x1 x2 xs0 := by
  unfold sout0_C_0
  rw [View.read_writes_eq_canon _ _ _ (scover0_C_0 c i arg1 harg1 arg2 harg2 arg3 harg3 arg4 harg4 arg5 harg5 hc0 hc1 x0 x1 x2 xs0)]
  unfold kernelRun0_C
  dsimp only
  sl_unfold_words
  rw [View.canon_unit_zero hz]
  simp only [View.readAt_eq_ld, harg1.read_unread, harg2.read_unread, harg3.read_unread, harg5.read_unread,
    View.ld_unit_zero (S := S4096x128) hz, View.ld_unit_zero (S := S1x1) hz]

/-- … and the output block holds that total negated and scaled. -/
theorem out_last (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .i32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S4096x128 .f32) (x1 : Vec F S4096x128 .f32) (x2 : Vec F S4096x128 .i32) (xs0 : Vec F S1x1 .f32) :
    out0_C_3 c i arg1 harg1 arg2 harg2 arg3 harg3 arg4 harg4 arg5 harg5 hc0 hc1 x0 x1 x2 xs0 = k0_pay1 (k0_pay3 x0 x1 x2 xs0) := by
  unfold out0_C_3
  rw [View.read_writes_eq_canon _ _ _ (cover0_C_3 c i arg1 harg1 arg2 harg2 arg3 harg3 arg4 harg4 arg5 harg5 hc0 hc1 x0 x1 x2 xs0)]
  unfold kernelRun0_C
  dsimp only
  sl_unfold_words
  rw [View.canon_unit_zero hz, View.readCov_unit_zero (S := S1x1) _ hz]
  simp only [View.readAt_eq_ld, harg1.read_unread, harg2.read_unread, harg3.read_unread, harg5.read_unread,
    View.ld_unit_zero (S := S4096x128) hz, View.ld_unit_zero (S := S1x1) hz]

end Cert.KernelIdeal.Pieces

end
-- ==== Proof.LibLayout.lean ====
/-
  Layout operations read at an index written by its coordinates, for the shapes a "keepdims" reduction kernel meets:
  a unit axis inserted in the middle or at the end of a shape by a shape cast, a broadcast along such a unit axis,
  the two composed, and a sum over one axis read as a `Fin`-indexed sum at coordinates.  All statements are over
  generic extents; the indices are the library's `ixN` constructors.
-/
import Idealize.ShloMosaic.Lib.Pipeline.Value
import Idealize.ShloMosaic.Lib.ValueIdx
import Idealize.ShloMosaic.Lib.ValueLayout
import Idealize.ShloMosaic.PureOps.Ideal.Laws

namespace PushPull.Layout

open Idealize.ShloMosaic Idealize.ShloMosaic.ValueIdx

variable {α : Type}

/-! ## A unit axis inserted by a shape cast -/

/-- `[a, b] → [a, b, 1]`: the entry `(i, j, 0)` is the entry `(i, j)`. -/
theorem cast_ab_ab1 {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- `[a, b] → [a, 1, b]`. -/
theorem cast_ab_a1b {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- `[a, b, c] → [a, b, 1, c]`. -/
theorem cast_abc_ab1c {a b c : ℕ} (x : (⟨3, ![a, b, c]⟩ : Shape).Idx → α)
    (h : (⟨3, ![a, b, c]⟩ : Shape).ShapeCasts ⟨4, ![a, b, 1, c]⟩) (i : Fin a) (j : Fin b) (u : Fin 1) (k : Fin c) :
    shapeCast ⟨4, ![a, b, 1, c]⟩ x h (ix4 i j u k) = x (ix3 i j k) :=
  shapeCast_apply x h _ _ (by
    have hu : u.val = 0 := by omega
    rw [Shape.rowMajor_val_three, Shape.rowMajor_val_four]
    show (i.val * b + j.val) * c + k.val = ((i.val * b + j.val) * 1 + u.val) * c + k.val
    rw [hu, Nat.mul_one, Nat.add_zero])

/-- `[a, b, c] → [a, 1, b, c]`. -/
theorem cast_abc_a1bc {a b c : ℕ} (x : (⟨3, ![a, b, c]⟩ : Shape).Idx → α)
    (h : (⟨3, ![a, b, c]⟩ : Shape).ShapeCasts ⟨4, ![a, 1, b, c]⟩) (i : Fin a) (u : Fin 1) (j : Fin b) (k : Fin c) :
    shapeCast ⟨4, ![a, 1, b, c]⟩ x h (ix4 i u j k) = x (ix3 i j k) :=
  shapeCast_apply x h _ _ (by
    have hu : u.val = 0 := by omega
    rw [Shape.rowMajor_val_three, Shape.rowMajor_val_four]
    show (i.val * b + j.val) * c + k.val = ((i.val * 1 + u.val) * b + j.val) * c + k.val
    rw [hu, Nat.mul_one, Nat.add_zero])

/-- `[a, b, c] → [a, b, c, 1]`. -/
theorem cast_abc_abc1 {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_three, Shape.rowMajor_val_four]
    show (i.val * b + j.val) * c + k.val = ((i.val * b + j.val) * c + k.val) * 1 + u.val
    rw [hu, Nat.mul_one, Nat.add_zero])

/-- `[a] → [a, 1]`. -/
theorem cast_a_a1 {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-! ## A broadcast along a unit axis -/

/-- `[a, b, 1, c] → [a, b, k, c]`. -/
theorem bcast_ab1c {a b c k : ℕ} (x : (⟨4, ![a, b, 1, c]⟩ : Shape).Idx → α)
    (h : (⟨4, ![a, b, 1, c]⟩ : Shape).Broadcasts ⟨4, ![a, b, k, c]⟩) (i : Fin a) (j : Fin b) (q : Fin k) (l : Fin c) :
    broadcastTo ⟨4, ![a, b, k, c]⟩ x h (ix4 i j q l) = x (ix4 i j (0 : Fin 1) l) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm
    | ⟨3, _⟩ => show l.val = if c = 1 then 0 else l.val; split <;> omega)

/-- `[a, 1, b, c] → [a, k, b, c]`. -/
theorem bcast_a1bc {a b c k : ℕ} (x : (⟨4, ![a, 1, b, c]⟩ : Shape).Idx → α)
    (h : (⟨4, ![a, 1, b, c]⟩ : Shape).Broadcasts ⟨4, ![a, k, b, c]⟩) (i : Fin a) (q : Fin k) (j : Fin b) (l : Fin c) :
    broadcastTo ⟨4, ![a, k, b, c]⟩ x h (ix4 i q j l) = x (ix4 i (0 : Fin 1) j l) :=
  broadcastTo_apply x h _ _ (fun ax => by
    have hi := i.isLt; have hj := j.isLt; have hl := l.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega
    | ⟨3, _⟩ => show l.val = if c = 1 then 0 else l.val; split <;> omega)

/-- `[a, b, 1] → [a, b, k]`. -/
theorem bcast_ab1 {a b k : ℕ} (x : (⟨3, ![a, b, 1]⟩ : Shape).Idx → α)
    (h : (⟨3, ![a, b, 1]⟩ : Shape).Broadcasts ⟨3, ![a, b, k]⟩) (i : Fin a) (j : Fin b) (q : Fin k) :
    broadcastTo ⟨3, ![a, b, k]⟩ x h (ix3 i j q) = x (ix3 i j (0 : Fin 1)) :=
  broadcastTo_apply x h _ _ (fun ax => by
    have hi := i.isLt; have hj := j.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm)

/-- `[a, 1, b] → [a, k, b]`. -/
theorem bcast_a1b {a b k : ℕ} (x : (⟨3, ![a, 1, b]⟩ : Shape).Idx → α)
    (h : (⟨3, ![a, 1, b]⟩ : Shape).Broadcasts ⟨3, ![a, k, b]⟩) (i : Fin a) (q : Fin k) (j : Fin b) :
    broadcastTo ⟨3, ![a, k, b]⟩ x h (ix3 i q j) = x (ix3 i (0 : Fin 1) j) :=
  broadcastTo_apply x h _ _ (fun ax => by
    have hi := i.isLt; have hj := j.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega)

/-- `[a, b, c, 1] → [a, b, c, k]`. -/
theorem bcast_abc1 {a b c k : ℕ} (x : (⟨4, ![a, b, c, 1]⟩ : Shape).Idx → α)
    (h : (⟨4, ![a, b, c, 1]⟩ : Shape).Broadcasts ⟨4, ![a, b, c, k]⟩) (i : Fin a) (j : Fin b) (l : Fin c) (q : Fin k) :
    broadcastTo ⟨4, ![a, b, c, k]⟩ x h (ix4 i j l q) = x (ix4 i j l (0 : Fin 1)) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show l.val = if c = 1 then 0 else l.val; split <;> omega
    | ⟨3, _⟩ => show (0 : ℕ) = if 1 = 1 then 0 else q.val; exact (if_pos rfl).symm)

/-- `[1, 1] → [1, k]`. -/
theorem bcast_11 {k : ℕ} (x : (⟨2, ![1, 1]⟩ : Shape).Idx → α)
    (h : (⟨2, ![1, 1]⟩ : Shape).Broadcasts ⟨2, ![1, k]⟩) (u : Fin 1) (q : Fin k) :
    broadcastTo ⟨2, ![1, k]⟩ x h (ix2 u q) = x (ix2 (0 : Fin 1) (0 : Fin 1)) :=
  broadcastTo_apply x h _ _ (fun ax => by
    match ax with
    | ⟨0, _⟩ => show (0 : ℕ) = if 1 = 1 then 0 else u.val; exact (if_pos rfl).symm
    | ⟨1, _⟩ => show (0 : ℕ) = if 1 = 1 then 0 else q.val; exact (if_pos rfl).symm)

/-! ## A sum over one axis, at coordinates -/

section Sums
variable {φ : FTy}

/-- The last axis of three. -/
theorem sum_abc_2 {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun ax => Fin.ext (by
      match ax with | ⟨0, _⟩ => rfl | ⟨1, _⟩ => rfl | ⟨2, _⟩ => rfl)))

/-- The last axis of four. -/
theorem sum_abcd_3 {a b c d : ℕ} (src : FVec Ideal ⟨4, ![a, b, c, d]⟩ φ) (acc : BitVec φ.bits)
    (h : (⟨4, ![a, b, c, d]⟩ : Shape).Reduces [3] ⟨3, ![a, b, c]⟩) (hφ : FKind.Formats φ) (hacc : acc = FKind.add.neutral φ hφ)
    (i : Fin a) (j : Fin b) (l : Fin c) :
    multiReduction .add [3] ⟨3, ![a, b, c]⟩ src acc h hφ hacc (ix3 i j l) = ∑ k : Fin d, src (ix4 i j l k) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The third axis of four. -/
theorem sum_abcd_2 {a b c d : ℕ} (src : FVec Ideal ⟨4, ![a, b, c, d]⟩ φ) (acc : BitVec φ.bits)
    (h : (⟨4, ![a, b, c, d]⟩ : Shape).Reduces [2] ⟨3, ![a, b, d]⟩) (hφ : FKind.Formats φ) (hacc : acc = FKind.add.neutral φ hφ)
    (i : Fin a) (j : Fin b) (l : Fin d) :
    multiReduction .add [2] ⟨3, ![a, b, d]⟩ src acc h hφ hacc (ix3 i j l) = ∑ k : Fin c, src (ix4 i j k l) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The last axis of two. -/
theorem sum_ab_1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (funext fun ax => Fin.ext (by
      match ax with | ⟨0, _⟩ => rfl | ⟨1, _⟩ => rfl)))

/-- The first axis of two. -/
theorem sum_ab_0 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) :=
  (Ideal.multiReduction_add_single src acc h hφ hacc (ix1 j)).trans
    (Finset.sum_congr rfl fun k _ => congrArg src (funext fun ax => Fin.ext (by
      match ax with | ⟨0, _⟩ => rfl | ⟨1, _⟩ => rfl)))

end Sums

end PushPull.Layout
-- ==== Proof.Payload.lean ====
/-
  The three stored values of the kernel body, read at their one entry, over the extended reals.

  The tile's sum is taken lanes first (128 entries of a row), then rows (4096 of them); both are plain finite sums, so
  the tile contributes the double sum over (row, lane) of the samples' contributions.  The running total adds this to
  what it held; the reset value is the zero word; the final value is (zero word - total) times the word 2^-23.
-/
import proofs.«132204_j34213709479939_2_alg».proof.Proof.Gen.KernelIdeal.Skeleton
import proofs.«132204_j34213709479939_2_alg».proof.Proof.Spec
import proofs.«132204_j34213709479939_2_alg».proof.Proof.LibLayout
import Idealize.ShloMosaic.Lib.ValueIdx
import Idealize.ShloMosaic.Lib.Pipeline.Value

noncomputable section

namespace Cert.KernelIdeal.Payload

open Cert.KernelIdeal Cert.KernelIdeal.Gen Idealize.ShloMosaic Idealize.ShloMosaic.ValueIdx LabelLoss PushPull.Layout
open scoped BigOperators

/-- Lanes first, then rows: the two one-axis sums of a [4096, 128] array are its double sum. -/
theorem rows_lanes (V : FVec Ideal S4096x128 .f32) (u : Fin 1) :
    multiReduction (F := Ideal) .add [0] S1
        (shapeCast S4096x1 (multiReduction (F := Ideal) .add [1] S4096 V 0x00000000#32 reduces_S4096x128_S4096 (.inl rfl) rfl)
          shapeCasts_S4096_S4096x1)
        0x00000000#32 reduces_S4096x1_S1 (.inl rfl) rfl (ix1 u)
      = ∑ r : Fin 4096, ∑ q : Fin 128, V (ix2 r q) :=
  (sum_ab_0 _ _ _ _ _ u).trans
    (Finset.sum_congr rfl fun r _ => (cast_a_a1 _ _ r u).trans (sum_ab_1 _ _ _ _ _ r))

/-- The running total's new value: what it held plus the tile's double sum of contributions. -/
theorem total_apply (x0 x1 : Vec Ideal S4096x128 .f32) (x2 : Vec Ideal S4096x128 .i32) (acc : Vec Ideal S1x1 .f32)
    (u w : Fin 1) :
    k0_pay3 (F := Ideal) x0 x1 x2 acc (ix2 u w)
      = acc (ix2 u w) + ∑ r : Fin 4096, ∑ q : Fin 128, errK (x0 (ix2 r q)) (x1 (ix2 r q)) (x2 (ix2 r q)) := by
  unfold k0_pay3
  rw [shapeCast_self, shapeCast_self, shapeCast_self, shapeCast_self]
  refine congrArg (acc (ix2 u w) + ·) ?_
  refine (cast_a_a1 _ _ u w).trans ?_
  refine (rows_lanes _ u).trans ?_
  rfl

/-- The reset value is the zero word. -/
theorem reset_apply (u w : Fin 1) : k0_pay2 (F := Ideal) (ix2 u w) = zeroW := by
  unfold k0_pay2
  rw [shapeCast_self]
  rfl

/-- The final value: the total subtracted from the zero word, times the word 2^-23. -/
theorem final_apply (acc : Vec Ideal S1x1 .f32) (u w : Fin 1) :
    k0_pay1 (F := Ideal) acc (ix2 u w) = (zeroW - acc (ix2 u w)) * invN := rfl

end Cert.KernelIdeal.Payload

end
-- ==== Proof.Blocks.lean ====
/-
  The input windows' blocks, read at (row, lane), as entries of the argument arrays.

  Before the region each [8388608(, 1)] argument is re-laid as [65536, 128] (row-major, so sample n sits at row n / 128,
  lane n % 128).  Grid point t is handed rows 4096·t … 4096·t + 4095 of each re-laid array.  So entry (r, q) of the
  block at point t is sample (t·4096 + r)·128 + q of the argument.
-/
import proofs.«132204_j34213709479939_2_alg».proof.Proof.Gen.KernelIdeal.Frame
import proofs.«132204_j34213709479939_2_alg».proof.Proof.Spec
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.StableHlo

namespace Cert.KernelIdeal.Blocks

open Cert.KernelIdeal Cert.KernelIdeal.Gen Idealize.ShloMosaic.ValueIdx LabelLoss

variable (m : (ℓ : Loc nD τ sig) → Buf (Elt Ideal) ℓ)

/-- The three input windows all take row block t, column block 0. -/
theorem idx_0 : ∀ t : Fin cfg0.N, win0_0.index t 0 = t.val ∧ win0_0.index t 1 = 0 :=
  (by decide +kernel : ∀ t : Fin grid0.N, win0_0.index t 0 = t.val ∧ win0_0.index t 1 = 0)
theorem idx_1 : ∀ t : Fin cfg0.N, win0_1.index t 0 = t.val ∧ win0_1.index t 1 = 0 :=
  (by decide +kernel : ∀ t : Fin grid0.N, win0_1.index t 0 = t.val ∧ win0_1.index t 1 = 0)
theorem idx_2 : ∀ t : Fin cfg0.N, win0_2.index t 0 = t.val ∧ win0_2.index t 1 = 0 :=
  (by decide +kernel : ∀ t : Fin grid0.N, win0_2.index t 0 = t.val ∧ win0_2.index t 1 = 0)

/-- The re-laid arrays the region finds. -/
theorem relaid_0 (c : Dev nD) : (V m c main_v0 : S65536x128.Idx → EReal)
    = shapeCast S65536x128 (m ((c : Thread nD τ).loc main_arg0)) shapeCasts_S8388608x1_S65536x128 := by
  show StableHlo.after hostOps0 (fun b => m (c, b)) (Proc.devRef .tc main_v0) = _
  after_results
  rfl
theorem relaid_1 (c : Dev nD) : (V m c main_v1 : S65536x128.Idx → EReal)
    = shapeCast S65536x128 (m ((c : Thread nD τ).loc main_arg1)) shapeCasts_S8388608x1_S65536x128 := by
  show StableHlo.after hostOps0 (fun b => m (c, b)) (Proc.devRef .tc main_v1) = _
  after_results
  rfl
theorem relaid_2 (c : Dev nD) : (V m c main_v2 : S65536x128.Idx → BitVec 32)
    = shapeCast S65536x128 (m ((c : Thread nD τ).loc main_arg2)) shapeCasts_S8388608_S65536x128 := by
  show StableHlo.after hostOps0 (fun b => m (c, b)) (Proc.devRef .tc main_v2) = _
  after_results
  rfl

/-- Sample number of entry (r, q) of the block at point t. -/
theorem sample_lt (t : Fin cfg0.N) (r : Fin 4096) (q : Fin 128) : (t.val * 4096 + r.val) * 128 + q.val < 8388608 := by
  have hN : cfg0.N = 16 := N_0
  have := t.isLt; have := r.isLt; have := q.isLt
  omega

/-- Row-major: entry (R, q) of the [65536, 128] re-laying of a [8388608, 1] array is its entry (R·128 + q, 0). -/
theorem relay_f (x : (⟨2, ![8388608, 1]⟩ : Shape).Idx → EReal) (h : (⟨2, ![8388608, 1]⟩ : Shape).ShapeCasts ⟨2, ![65536, 128]⟩)
    (R : Fin 65536) (q : Fin 128) (hlt : R.val * 128 + q.val < 8388608) :
    shapeCast ⟨2, ![65536, 128]⟩ x h (ix2 R q) = x (ix2 (⟨R.val * 128 + q.val, hlt⟩ : Fin 8388608) (0 : Fin 1)) :=
  shapeCast_apply x h _ _ (by
    rw [Shape.rowMajor_val_two, Shape.rowMajor_val_two]
    show (R.val * 128 + q.val) * 1 + 0 = R.val * 128 + q.val
    omega)

/-- The same for a [8388608] array. -/
theorem relay_l (x : (⟨1, ![8388608]⟩ : Shape).Idx → BitVec 32) (h : (⟨1, ![8388608]⟩ : Shape).ShapeCasts ⟨2, ![65536, 128]⟩)
    (R : Fin 65536) (q : Fin 128) (hlt : R.val * 128 + q.val < 8388608) :
    shapeCast ⟨2, ![65536, 128]⟩ x h (ix2 R q) = x (ix1 (⟨R.val * 128 + q.val, hlt⟩ : Fin 8388608)) :=
  shapeCast_apply x h _ _ (by
    rw [Shape.rowMajor_val_one, Shape.rowMajor_val_two]
    show R.val * 128 + q.val = R.val * 128 + q.val
    rfl)

/-- Window 0's block at point t, entry (r, q): row 4096·t + r, lane q of the re-laid synonymy scores. -/
theorem window_0 (c : Dev nD) (t : Fin cfg0.N) (r : Fin 4096) (q : Fin 128) (R : Fin 65536) (hR : R.val = t.val * 4096 + r.val) :
    (iblk m c 0 t : Vec Ideal S4096x128 .f32) (ix2 r q) = (V m c main_v0 : S65536x128.Idx → EReal) (ix2 R q) := by
  have hi := idx_0 t
  unfold iblk
  rw [View.read_apply]
  show V m c main_v0 _ = V m c main_v0 _
  congr 1
  funext a
  apply Fin.ext
  match a with
  | ⟨0, _⟩ => show win0_0.index t 0 * 4096 + 1 * r.val = R.val; rw [hi.1, hR]; omega
  | ⟨1, _⟩ => show win0_0.index t 1 * 128 + 1 * q.val = q.val; rw [hi.2]; omega

theorem window_1 (c : Dev nD) (t : Fin cfg0.N) (r : Fin 4096) (q : Fin 128) (R : Fin 65536) (hR : R.val = t.val * 4096 + r.val) :
    (iblk m c 1 t : Vec Ideal S4096x128 .f32) (ix2 r q) = (V m c main_v1 : S65536x128.Idx → EReal) (ix2 R q) := by
  have hi := idx_1 t
  unfold iblk
  rw [View.read_apply]
  show V m c main_v1 _ = V m c main_v1 _
  congr 1
  funext a
  apply Fin.ext
  match a with
  | ⟨0, _⟩ => show win0_1.index t 0 * 4096 + 1 * r.val = R.val; rw [hi.1, hR]; omega
  | ⟨1, _⟩ => show win0_1.index t 1 * 128 + 1 * q.val = q.val; rw [hi.2]; omega

theorem window_2 (c : Dev nD) (t : Fin cfg0.N) (r : Fin 4096) (q : Fin 128) (R : Fin 65536) (hR : R.val = t.val * 4096 + r.val) :
    (iblk m c 2 t : Vec Ideal S4096x128 .i32) (ix2 r q) = (V m c main_v2 : S65536x128.Idx → BitVec 32) (ix2 R q) := by
  have hi := idx_2 t
  unfold iblk
  rw [View.read_apply]
  show V m c main_v2 _ = V m c main_v2 _
  congr 1
  funext a
  apply Fin.ext
  match a with
  | ⟨0, _⟩ => show win0_2.index t 0 * 4096 + 1 * r.val = R.val; rw [hi.1, hR]; omega
  | ⟨1, _⟩ => show win0_2.index t 1 * 128 + 1 * q.val = q.val; rw [hi.2]; omega

/-- The row of the re-laid array that entry (r, ·) of the block at point t lies on. -/
def rowOf (t : Fin cfg0.N) (r : Fin 4096) : Fin 65536 :=
  ⟨t.val * 4096 + r.val, by have hN : cfg0.N = 16 := N_0; have := t.isLt; have := r.isLt; omega⟩

/-- The blocks' entries as samples of the arguments. -/
theorem syn_apply (c : Dev nD) (t : Fin cfg0.N) (r : Fin 4096) (q : Fin 128) :
    (iblk m c 0 t : Vec Ideal S4096x128 .f32) (ix2 r q)
      = flatF (m ((c : Thread nD τ).loc main_arg0)) ((t.val * 4096 + r.val) * 128 + q.val) :=
  (window_0 m c t r q (rowOf t r) rfl).trans
    ((congrFun (relaid_0 m c) _).trans ((relay_f _ _ (rowOf t r) q (sample_lt t r q)).trans (flatF_lt _ (⟨(t.val * 4096 + r.val) * 128 + q.val, sample_lt t r q⟩ : Fin 8388608)).symm))

theorem ant_apply (c : Dev nD) (t : Fin cfg0.N) (r : Fin 4096) (q : Fin 128) :
    (iblk m c 1 t : Vec Ideal S4096x128 .f32) (ix2 r q)
      = flatF (m ((c : Thread nD τ).loc main_arg1)) ((t.val * 4096 + r.val) * 128 + q.val) :=
  (window_1 m c t r q (rowOf t r) rfl).trans
    ((congrFun (relaid_1 m c) _).trans ((relay_f _ _ (rowOf t r) q (sample_lt t r q)).trans (flatF_lt _ (⟨(t.val * 4096 + r.val) * 128 + q.val, sample_lt t r q⟩ : Fin 8388608)).symm))

theorem lab_apply (c : Dev nD) (t : Fin cfg0.N) (r : Fin 4096) (q : Fin 128) :
    (iblk m c 2 t : Vec Ideal S4096x128 .i32) (ix2 r q)
      = flatL (m ((c : Thread nD τ).loc main_arg2)) ((t.val * 4096 + r.val) * 128 + q.val) :=
  (window_2 m c t r q (rowOf t r) rfl).trans
    ((congrFun (relaid_2 m c) _).trans ((relay_l _ _ (rowOf t r) q (sample_lt t r q)).trans (flatL_lt _ (⟨(t.val * 4096 + r.val) * 128 + q.val, sample_lt t r q⟩ : Fin 8388608)).symm))

end Cert.KernelIdeal.Blocks

end
-- ==== Proof.Totals.lean ====
/-
  The running total over the grid, and what the last point writes out.

  After point n the one-entry scratch holds 0 + tile 0 + tile 1 + … + tile n, where tile J is the double sum over
  (row, lane) of the contributions of samples (J·4096 + r)·128 + q: the first point starts from the zero entry, every
  later point adds its tile to what the point before left.  This is an induction on the point, never an enumeration
  of the grid.  After the last point (n = 15) the output block holds (zero word - total) · (word 2^-23), which is the
  tile-by-tile closed formula of the specification.
-/
import proofs.«132204_j34213709479939_2_alg».proof.Proof.Gen.KernelIdeal.Frame
import proofs.«132204_j34213709479939_2_alg».proof.Proof.Spec
import proofs.«132204_j34213709479939_2_alg».proof.Proof.Pieces
import proofs.«132204_j34213709479939_2_alg».proof.Proof.Payload
import proofs.«132204_j34213709479939_2_alg».proof.Proof.Blocks
import Idealize.ShloMosaic.PureOps.Ideal.Laws

noncomputable section

open Idealize.ShloMosaic Idealize.ShloMosaic.TcCoe Idealize.SL.Sem

namespace Cert.KernelIdeal.Totals

open Cert.KernelIdeal Cert.KernelIdeal.Gen Idealize.ShloMosaic.ValueIdx LabelLoss
open scoped BigOperators

variable (m : (ℓ : Loc nD τ sig) → Buf (Elt Ideal) ℓ)

/-- The three argument arrays by sample number. -/
abbrev syn (c : Dev nD) : ℕ → EReal := flatF (m ((c : Thread nD τ).loc main_arg0))
abbrev ant (c : Dev nD) : ℕ → EReal := flatF (m ((c : Thread nD τ).loc main_arg1))
abbrev lab (c : Dev nD) : ℕ → BitVec 32 := flatL (m ((c : Thread nD τ).loc main_arg2))

/-- Tile J's sum of contributions. -/
def tile (c : Dev nD) (J : ℕ) : EReal :=
  ∑ r : Fin 4096, ∑ q : Fin 128,
    errK (syn m c ((J * 4096 + r.val) * 128 + q.val)) (ant m c ((J * 4096 + r.val) * 128 + q.val)) (lab m c ((J * 4096 + r.val) * 128 + q.val))

/-- The total after point n. -/
def running (c : Dev nD) : ℕ → EReal
  | 0 => 0 + tile m c 0
  | n + 1 => running c n + tile m c (n + 1)

theorem running_eq (c : Dev nD) (n : ℕ) : running m c n = ∑ J ∈ Finset.range (n + 1), tile m c J := by
  induction n with
  | zero => rw [running, Finset.sum_range_one, zero_add]
  | succ k ih => rw [running, ih, Finset.sum_range_succ _ (k + 1)]

/-- What point t adds to the total it was handed. -/
theorem point_sum (c : Dev nD) (t : Fin cfg0.N) (acc : Vec Ideal S1x1 .f32) (u w : Fin 1) :
    k0_pay3 (F := Ideal) (iblk m c 0 t) (iblk m c 1 t) (iblk m c 2 t) acc (ix2 u w) = acc (ix2 u w) + tile m c t.val := by
  refine (Payload.total_apply (iblk m c 0 t) (iblk m c 1 t) (iblk m c 2 t) acc u w).trans ?_
  refine congrArg (acc (ix2 u w) + ·) ?_
  refine Finset.sum_congr rfl fun r _ => Finset.sum_congr rfl fun q _ => ?_
  exact congr (congr (congrArg errK (Blocks.syn_apply m c t r q)) (Blocks.ant_apply m c t r q)) (Blocks.lab_apply m c t r q)

/-- The first point leaves 0 + tile 0. -/
theorem scratch_first (c : Dev nD) (t : Fin cfg0.N) (h0 : t.val % 16 = 0) (h1 : ¬t.val % 16 = 15) (u w : Fin 1) :
    (outsAt0 m c t.val t.isLt).2 (ix2 u w) = 0 + tile m c t.val := by
  rw [outsAt0_A m c t h0 h1]
  dsimp only
  refine (congrFun (Pieces.total_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) (ix2 u w)).trans ?_
  refine (point_sum m c t (k0_pay2 (F := Ideal)) u w).trans ?_
  rw [Payload.reset_apply]
  exact congrArg (· + tile m c t.val) Ideal.ofBits_zero_f32

/-- A later point leaves what the point before left plus its tile. -/
theorem scratch_later (c : Dev nD) (t : Fin cfg0.N) (h0 : ¬t.val % 16 = 0) (u w : Fin 1) :
    (outsAt0 m c t.val t.isLt).2 (ix2 u w) = (outsAt0 m c (t.val - 1) (Nat.lt_of_le_of_lt (Nat.sub_le _ _) t.isLt)).2 (ix2 u w) + tile m c t.val := by
  by_cases h1 : t.val % 16 = 15
  · rw [outsAt0_C m c t h0 h1]
    dsimp only
    refine (congrFun (Pieces.total_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) (ix2 u w)).trans ?_
    exact point_sum m c t (outsAt0 m c (t.val - 1) (Nat.lt_of_le_of_lt (Nat.sub_le _ _) t.isLt)).2 u w
  · rw [outsAt0_B m c t h0 h1]
    dsimp only
    refine (congrFun (Pieces.total_middle (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) (ix2 u w)).trans ?_
    exact point_sum m c t (outsAt0 m c (t.val - 1) (Nat.lt_of_le_of_lt (Nat.sub_le _ _) t.isLt)).2 u w

/-- By induction on the point: after point n the scratch holds the total of tiles 0 … n. -/
theorem scratch_after (c : Dev nD) : ∀ (n : ℕ) (h : n < cfg0.N) (u w : Fin 1), (outsAt0 m c n h).2 (ix2 u w) = running m c n
  | 0, h, u, w => scratch_first m c ⟨0, h⟩ rfl (by show ¬((0 : ℕ) % 16 = 15); decide) u w
  | n + 1, h, u, w => by
    have hN : cfg0.N = 16 := N_0
    have h0 : ¬(⟨n + 1, h⟩ : Fin cfg0.N).val % 16 = 0 := by dsimp only; omega
    refine (scratch_later m c ⟨n + 1, h⟩ h0 u w).trans ?_
    show (outsAt0 m c n _).2 (ix2 u w) + tile m c (n + 1) = running m c n + tile m c (n + 1)
    rw [scratch_after c n]

/-- The last point writes (zero word - total) · (word 2^-23) into the output block. -/
theorem out_last (c : Dev nD) (t : Fin cfg0.N) (h0 : ¬t.val % 16 = 0) (h1 : t.val % 16 = 15) (u w : Fin 1) :
    (outsAt0 m c t.val t.isLt).1 (ix2 u w) = (zeroW - ((outsAt0 m c (t.val - 1) (Nat.lt_of_le_of_lt (Nat.sub_le _ _) t.isLt)).2 (ix2 u w) + tile m c t.val)) * invN := by
  rw [outsAt0_C m c t h0 h1]
  dsimp only
  refine (congrFun (Pieces.out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) (ix2 u w)).trans ?_
  refine (Payload.final_apply _ u w).trans ?_
  rw [point_sum m c t (outsAt0 m c (t.val - 1) (Nat.lt_of_le_of_lt (Nat.sub_le _ _) t.isLt)).2 u w]

/-- The last point, as a point of the grid. -/
def tLast : Fin cfg0.N := ⟨15, by rw [show cfg0.N = 16 from N_0]; decide⟩

/-- The output block after the last point is the tile-by-tile closed formula, at both of its (unit) coordinates. -/
theorem out_value (c : Dev nD) (u w : Fin 1) :
    (outsAt0 m c tLast.val tLast.isLt).1 (ix2 u w) = kerTotal (syn m c) (ant m c) (lab m c) := by
  refine (out_last m c tLast (by decide) (by decide) u w).trans ?_
  have e := scratch_after m c (tLast.val - 1) (Nat.lt_of_le_of_lt (Nat.sub_le _ _) tLast.isLt) u w
  rw [e]
  show (zeroW - (running m c 14 + tile m c 15)) * invN = _
  rw [show running m c 14 + tile m c 15 = running m c 15 from rfl, running_eq]
  rfl

end Cert.KernelIdeal.Totals

end
-- ==== Proof.Final.lean ====
/-
  The kernel's result, read off its run.

  The one-entry output block is written back once, after the last grid point, and that one block is the whole [1, 1]
  result array; the line after the region re-lays the [1, 1] array as a scalar.  So the program's result is the
  tile-by-tile closed formula of the three argument arrays, and the argument arrays end as they began.
-/
import proofs.«132204_j34213709479939_2_alg».proof.Proof.Gen.KernelIdeal.Frame
import proofs.«132204_j34213709479939_2_alg».proof.Proof.Spec
import proofs.«132204_j34213709479939_2_alg».proof.Proof.Totals
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.StableHlo
open Idealize.ShloMosaic.Pipeline (Dat)

namespace Cert.KernelIdeal.Final

open Cert.KernelIdeal Cert.KernelIdeal.Gen Idealize.ShloMosaic.ValueIdx LabelLoss

variable (m : (ℓ : Loc nD τ sig) → Buf (Elt Ideal) ℓ) (ρ : Dev nD → PrngReg)

/-- The loss, by the tile-by-tile formula, of core c's argument arrays. -/
abbrev loss (c : Dev nD) : EReal := kerTotal (Totals.syn m c) (Totals.ant m c) (Totals.lab m c)

/-- The [1, 1] result array: its one entry is the loss. -/
abbrev result (c : Dev nD) : Buf (Elt Ideal) ((c : Thread nD τ).loc main_v3) := fun _ => loss m c

/-- What the output's staging buffer holds after the last point is the result array. -/
theorem after_last (c : Dev nD) : (outsAt0 m c Totals.tLast.val Totals.tLast.isLt).1 = result m c := by
  funext j
  obtain ⟨u, w, rfl⟩ : ∃ (u w : Fin 1), j = ix2 u w := ⟨j 0, j 1, eq_ix2 j⟩
  exact Totals.out_value m c u w

/-- The one write-back, after the last point, writes the result array: block (0, 0) of a [1, 1] array is the array. -/
theorem flushed_eq (c : Dev nD) (t : Fin cfg0.N) (hf : (cfg0.win 3).flush t = true) :
    (dats m 0 c).flushed 3 t = ((cfg0.win 3).blk t).view.read (Elt Ideal) (result m c) := by
  have hN : cfg0.N = 16 := N_0
  have h15 : t.val = 15 := by have := (flush0_3 t).mp hf; have := t.isLt; omega
  obtain rfl : t = Totals.tLast := Fin.ext h15
  show (cfg0.win 3).cut (grid0.coords Totals.tLast) ((dats m 0 c).after 3 Totals.tLast) = _
  rw [after0_3, after_last]
  have hz' : (fun a => win0_3.index Totals.tLast a * main_v3.ty.shape.size a) = fun _ => 0 := funext fun a => by fin_cases a <;> decide
  exact (Memref.read_access_unit_zero (Elt Ideal) main_v3 hz' (fun a => by rw [congrFun hz' a]; simp) (result m c)).symm

/-- So the result array ends holding the loss: the last point's block covers it. -/
theorem final_o (c : Dev nD) : (dats m 0 c).arrAt 3 cfg0.N = result m c :=
  (dats m 0 c).arrAt_eq_of_cover 3 (result m c) (flushed_eq m c) fun i =>
    ⟨Totals.tLast, (flush0_3 Totals.tLast).mpr (by decide), by
      show i ∈ ((View.whole main_v3).slice (win0_3.rect Totals.tLast)).set
      rw [View.set_slice_whole, Rect.mem_set_unit]
      intro a
      have h0 : (i 0 : Nat) < 1 := (i 0).isLt
      have h1 : (i 1 : Nat) < 1 := (i 1).isLt
      match a with
      | ⟨0, _⟩ => show win0_3.index Totals.tLast 0 * win0_3.size 0 ≤ (i 0 : Nat) ∧ (i 0 : Nat) < win0_3.index Totals.tLast 0 * win0_3.size 0 + win0_3.xsize (grid0.coords Totals.tLast) 0
                  rw [show win0_3.index Totals.tLast 0 * win0_3.size 0 = 0 from by decide +kernel, show win0_3.xsize (grid0.coords Totals.tLast) 0 = 1 from by decide +kernel]; omega
      | ⟨1, _⟩ => show win0_3.index Totals.tLast 1 * win0_3.size 1 ≤ (i 1 : Nat) ∧ (i 1 : Nat) < win0_3.index Totals.tLast 1 * win0_3.size 1 + win0_3.xsize (grid0.coords Totals.tLast) 1
                  rw [show win0_3.index Totals.tLast 1 * win0_3.size 1 = 0 from by decide +kernel, show win0_3.xsize (grid0.coords Totals.tLast) 1 = 1 from by decide +kernel]; omega⟩

/-- The line after the region re-lays the [1, 1] array as a scalar: the scalar result is the loss. -/
theorem tail_value (c : Dev nD) :
    Pipeline.afterTail₀ cfgs (dats m) 0 (V0 m) [hostOps1] c main_v4 = fun _ => loss m c := by
  unfold Pipeline.afterTail₀
  show StableHlo.after hostOps1 _ (Proc.devRef .tc main_v4) = _
  after_results
  rw [(Pipeline.withArrays_arr spec0 launch0.win.arr_inj c _ _ 3).trans (final_o m c)]
  rfl

/-- The run, read: the scalar result at the loss, the argument arrays unchanged. -/
theorem run : θ_run defs (onTc (τ := τ) (main (F := Ideal))) ⟨m, fun _ => 0, ρ⟩ fun r => ∀ c : Dev nD,
      r.2.mem ((c.tc : Thread nD τ).loc main_v4) = (fun _ => loss m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (tail_value m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Final

end
-- ==== Proof.RefRun.lean ====
/-
  The reference program's run, read back as a value.

  The program is a straight line of 36 host operations (three of them calls, whose bodies are listed in place).  Run from
  any memory, every fair execution ends with each buffer at the fold of the operations over the launch contents; for the
  result buffer that fold is one composed term of the three argument arrays, and the argument buffers are never written.
  The list is given in two spellings — the called functions' operations over typed references to the calls' buffers, as
  the program has them, and over the plain references — which are equal because transporting contents along a type
  equation that holds by computation is the identity.  The fold is read off the plain spelling.
-/
import proofs.«132204_j34213709479939_2_alg».proof.Proof.Gen.ReferenceIdeal
import Idealize.ShloMosaic.Lib.StableHlo.Run

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- The reference program's 36 host operations, in order, the three called functions' operations standing in their calls'
    places over typed references to the calls' buffers. -/
abbrev opsT : List (HloOp τ sig (Elt F)) :=
  [ binary main_arg0 main_arg1 main_v0 ((fun a b => concatenate S8388608x2 1 [⟨S8388608x1, a⟩, ⟨S8388608x1, b⟩] concatenates_S8388608x1_S8388608x1_S8388608x2_d1) : (⟨S8388608x1, .f32⟩ : BufTy).Contents (Elt F) → (⟨S8388608x1, .f32⟩ : BufTy).Contents (Elt F) → (⟨S8388608x2, .f32⟩ : BufTy).Contents (Elt F)),
    TRef.nullary (TRef.of (T := ⟨S_, .f32⟩) main_call0_cst) (constant S_ .f32 0xFF800000#32),
    TRef.binary (TRef.of (T := ⟨S8388608x2, .f32⟩) main_v0) (TRef.of (T := ⟨S_, .f32⟩) main_call0_cst) (TRef.of (T := ⟨S8388608, .f32⟩) main_call0_v0) (fun x v => Host.reduce FloatOps.maximumf x v reducesTo_S8388608x2_S8388608_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S8388608, .f32⟩) main_call0_v1) (broadcastInDim S8388608 ![] bcast_S_S8388608),
    TRef.binary (TRef.of (T := ⟨S8388608, .f32⟩) main_call0_v1) (TRef.of (T := ⟨S8388608, .f32⟩) main_call0_v0) (TRef.of (T := ⟨S8388608, .f32⟩) main_call0_v2) maximumf,
    TRef.unary (TRef.of (T := ⟨S8388608, .f32⟩) main_call0_v2) (TRef.of (T := ⟨S8388608x1, .f32⟩) main_call0_v3) (broadcastInDim S8388608x1 ![0] bcast_S8388608_S8388608x1_0),
    TRef.unary (TRef.of (T := ⟨S8388608x1, .f32⟩) main_call0_v3) (TRef.of (T := ⟨S8388608x2, .f32⟩) main_call0_v4) (broadcastInDim S8388608x2 ![0, 1] bcast_S8388608x1_S8388608x2_0_1),
    TRef.binary (TRef.of (T := ⟨S8388608x2, .f32⟩) main_v0) (TRef.of (T := ⟨S8388608x2, .f32⟩) main_call0_v4) (TRef.of (T := ⟨S8388608x2, .f32⟩) main_call0_v5) subf,
    TRef.unary (TRef.of (T := ⟨S8388608x2, .f32⟩) main_call0_v5) (TRef.of (T := ⟨S8388608x2, .f32⟩) main_call0_v6) Host.exp,
    TRef.nullary (TRef.of (T := ⟨S_, .f32⟩) main_call0_cst_1) (constant S_ .f32 0x00000000#32),
    TRef.binary (TRef.of (T := ⟨S8388608x2, .f32⟩) main_call0_v6) (TRef.of (T := ⟨S_, .f32⟩) main_call0_cst_1) (TRef.of (T := ⟨S8388608, .f32⟩) main_call0_v7) (fun x v => Host.reduceAdd x v reducesTo_S8388608x2_S8388608_d1 h_S_),
    TRef.unary (TRef.of (T := ⟨S8388608, .f32⟩) main_call0_v7) (TRef.of (T := ⟨S8388608x1, .f32⟩) main_call0_v8) (broadcastInDim S8388608x1 ![0] bcast_S8388608_S8388608x1_0),
    TRef.unary (TRef.of (T := ⟨S8388608x1, .f32⟩) main_call0_v8) (TRef.of (T := ⟨S8388608x1, .f32⟩) main_call0_v9) Host.log,
    TRef.unary (TRef.of (T := ⟨S8388608x1, .f32⟩) main_call0_v9) (TRef.of (T := ⟨S8388608x2, .f32⟩) main_call0_v10) (broadcastInDim S8388608x2 ![0, 1] bcast_S8388608x1_S8388608x2_0_1),
    TRef.binary (TRef.of (T := ⟨S8388608x2, .f32⟩) main_call0_v5) (TRef.of (T := ⟨S8388608x2, .f32⟩) main_call0_v10) (TRef.of (T := ⟨S8388608x2, .f32⟩) main_v1) subf,
    nullary main_c (constantI S_ 32 1#32),
    unary main_c main_v2 (broadcastInDim S8388608 ![] bcast_S_S8388608 : (⟨S_, .i32⟩ : BufTy).Contents (Elt F) → (⟨S8388608, .i32⟩ : BufTy).Contents (Elt F)),
    binary main_arg2 main_v2 main_v3 (cmpi .eq : (⟨S8388608, .i32⟩ : BufTy).Contents (Elt F) → (⟨S8388608, .i32⟩ : BufTy).Contents (Elt F) → (⟨S8388608, .i1⟩ : BufTy).Contents (Elt F)),
    unary main_v1 main_v4 ((extractStridedSlice S8388608x1 ![0, 0] · slices_S8388608x2_S8388608x1_0_0) : (⟨S8388608x2, .f32⟩ : BufTy).Contents (Elt F) → (⟨S8388608x1, .f32⟩ : BufTy).Contents (Elt F)),
    reshape main_v4 main_v5 rfl shapeCasts_S8388608x1_S8388608,
    nullary main_c_0 (constantI S_ 32 2#32),
    unary main_c_0 main_v6 (broadcastInDim S8388608 ![] bcast_S_S8388608 : (⟨S_, .i32⟩ : BufTy).Contents (Elt F) → (⟨S8388608, .i32⟩ : BufTy).Contents (Elt F)),
    binary main_arg2 main_v6 main_v7 (cmpi .eq : (⟨S8388608, .i32⟩ : BufTy).Contents (Elt F) → (⟨S8388608, .i32⟩ : BufTy).Contents (Elt F) → (⟨S8388608, .i1⟩ : BufTy).Contents (Elt F)),
    unary main_v1 main_v8 ((extractStridedSlice S8388608x1 ![0, 1] · slices_S8388608x2_S8388608x1_0_1) : (⟨S8388608x2, .f32⟩ : BufTy).Contents (Elt F) → (⟨S8388608x1, .f32⟩ : BufTy).Contents (Elt F)),
    reshape main_v8 main_v9 rfl shapeCasts_S8388608x1_S8388608,
    nullary main_cst (constant S_ .f32 0x00000000#32),
    TRef.unary (TRef.of (T := ⟨S_, .f32⟩) main_cst) (TRef.of (T := ⟨S_, .f32⟩) main_call1_v0) id,
    TRef.unary (TRef.of (T := ⟨S_, .f32⟩) main_call1_v0) (TRef.of (T := ⟨S8388608, .f32⟩) main_call1_v1) (broadcastInDim S8388608 ![] bcast_S_S8388608),
    TRef.ternary (TRef.of (T := ⟨S8388608, .i1⟩) main_v7) (TRef.of (T := ⟨S8388608, .f32⟩) main_v9) (TRef.of (T := ⟨S8388608, .f32⟩) main_call1_v1) (TRef.of (T := ⟨S8388608, .f32⟩) main_v10) select,
    TRef.ternary (TRef.of (T := ⟨S8388608, .i1⟩) main_v3) (TRef.of (T := ⟨S8388608, .f32⟩) main_v5) (TRef.of (T := ⟨S8388608, .f32⟩) main_v10) (TRef.of (T := ⟨S8388608, .f32⟩) main_v11) select,
    nullary main_cst_1 (constant S_ .f32 0x00000000#32),
    binary main_v11 main_cst_1 main_v12 ((fun x v => Host.reduceAdd x v reducesTo_S8388608_S_d0 h_S_) : (⟨S8388608, .f32⟩ : BufTy).Contents (Elt F) → (⟨S_, .f32⟩ : BufTy).Contents (Elt F) → (⟨S_, .f32⟩ : BufTy).Contents (Elt F)),
    nullary main_cst_2 (constant S_ .f32 0x4B000000#32),
    binary main_v12 main_cst_2 main_v13 (Host.divf : (⟨S_, .f32⟩ : BufTy).Contents (Elt F) → (⟨S_, .f32⟩ : BufTy).Contents (Elt F) → (⟨S_, .f32⟩ : BufTy).Contents (Elt F)),
    unary main_v13 main_v14 (Host.negf : (⟨S_, .f32⟩ : BufTy).Contents (Elt F) → (⟨S_, .f32⟩ : BufTy).Contents (Elt F)) ]

/-- The program is the sequence of these operations. -/
theorem main_eqT (c : Dev nD) : main (F := F) c = seq opsT := rfl

/-- The same 36 operations with the called functions' operations spelt over the plain buffer references. -/
abbrev ops : List (HloOp τ sig (Elt F)) :=
  [ binary main_arg0 main_arg1 main_v0 ((fun a b => concatenate S8388608x2 1 [⟨S8388608x1, a⟩, ⟨S8388608x1, b⟩] concatenates_S8388608x1_S8388608x1_S8388608x2_d1) : (⟨S8388608x1, .f32⟩ : BufTy).Contents (Elt F) → (⟨S8388608x1, .f32⟩ : BufTy).Contents (Elt F) → (⟨S8388608x2, .f32⟩ : BufTy).Contents (Elt F)),
    nullary main_call0_cst ((constant S_ .f32 0xFF800000#32) : (⟨S_, .f32⟩ : BufTy).Contents (Elt F)),
    binary main_v0 main_call0_cst main_call0_v0 (((fun x v => Host.reduce FloatOps.maximumf x v reducesTo_S8388608x2_S8388608_d1 h_S_)) : (⟨S8388608x2, .f32⟩ : BufTy).Contents (Elt F) → (⟨S_, .f32⟩ : BufTy).Contents (Elt F) → (⟨S8388608, .f32⟩ : BufTy).Contents (Elt F)),
    nullary main_call0_cst_0 ((constant S_ .f32 0xFF800000#32) : (⟨S_, .f32⟩ : BufTy).Contents (Elt F)),
    unary main_call0_cst_0 main_call0_v1 (((broadcastInDim S8388608 ![] bcast_S_S8388608)) : (⟨S_, .f32⟩ : BufTy).Contents (Elt F) → (⟨S8388608, .f32⟩ : BufTy).Contents (Elt F)),
    binary main_call0_v1 main_call0_v0 main_call0_v2 ((maximumf) : (⟨S8388608, .f32⟩ : BufTy).Contents (Elt F) → (⟨S8388608, .f32⟩ : BufTy).Contents (Elt F) → (⟨S8388608, .f32⟩ : BufTy).Contents (Elt F)),
    unary main_call0_v2 main_call0_v3 (((broadcastInDim S8388608x1 ![0] bcast_S8388608_S8388608x1_0)) : (⟨S8388608, .f32⟩ : BufTy).Contents (Elt F) → (⟨S8388608x1, .f32⟩ : BufTy).Contents (Elt F)),
    unary main_call0_v3 main_call0_v4 (((broadcastInDim S8388608x2 ![0, 1] bcast_S8388608x1_S8388608x2_0_1)) : (⟨S8388608x1, .f32⟩ : BufTy).Contents (Elt F) → (⟨S8388608x2, .f32⟩ : BufTy).Contents (Elt F)),
    binary main_v0 main_call0_v4 main_call0_v5 ((subf) : (⟨S8388608x2, .f32⟩ : BufTy).Contents (Elt F) → (⟨S8388608x2, .f32⟩ : BufTy).Contents (Elt F) → (⟨S8388608x2, .f32⟩ : BufTy).Contents (Elt F)),
    unary main_call0_v5 main_call0_v6 ((Host.exp) : (⟨S8388608x2, .f32⟩ : BufTy).Contents (Elt F) → (⟨S8388608x2, .f32⟩ : BufTy).Contents (Elt F)),
    nullary main_call0_cst_1 ((constant S_ .f32 0x00000000#32) : (⟨S_, .f32⟩ : BufTy).Contents (Elt F)),
    binary main_call0_v6 main_call0_cst_1 main_call0_v7 (((fun x v => Host.reduceAdd x v reducesTo_S8388608x2_S8388608_d1 h_S_)) : (⟨S8388608x2, .f32⟩ : BufTy).Contents (Elt F) → (⟨S_, .f32⟩ : BufTy).Contents (Elt F) → (⟨S8388608, .f32⟩ : BufTy).Contents (Elt F)),
    unary main_call0_v7 main_call0_v8 (((broadcastInDim S8388608x1 ![0] bcast_S8388608_S8388608x1_0)) : (⟨S8388608, .f32⟩ : BufTy).Contents (Elt F) → (⟨S8388608x1, .f32⟩ : BufTy).Contents (Elt F)),
    unary main_call0_v8 main_call0_v9 ((Host.log) : (⟨S8388608x1, .f32⟩ : BufTy).Contents (Elt F) → (⟨S8388608x1, .f32⟩ : BufTy).Contents (Elt F)),
    unary main_call0_v9 main_call0_v10 (((broadcastInDim S8388608x2 ![0, 1] bcast_S8388608x1_S8388608x2_0_1)) : (⟨S8388608x1, .f32⟩ : BufTy).Contents (Elt F) → (⟨S8388608x2, .f32⟩ : BufTy).Contents (Elt F)),
    binary main_call0_v5 main_call0_v10 main_v1 ((subf) : (⟨S8388608x2, .f32⟩ : BufTy).Contents (Elt F) → (⟨S8388608x2, .f32⟩ : BufTy).Contents (Elt F) → (⟨S8388608x2, .f32⟩ : BufTy).Contents (Elt F)),
    nullary main_c (constantI S_ 32 1#32),
    unary main_c main_v2 (broadcastInDim S8388608 ![] bcast_S_S8388608 : (⟨S_, .i32⟩ : BufTy).Contents (Elt F) → (⟨S8388608, .i32⟩ : BufTy).Contents (Elt F)),
    binary main_arg2 main_v2 main_v3 (cmpi .eq : (⟨S8388608, .i32⟩ : BufTy).Contents (Elt F) → (⟨S8388608, .i32⟩ : BufTy).Contents (Elt F) → (⟨S8388608, .i1⟩ : BufTy).Contents (Elt F)),
    unary main_v1 main_v4 ((extractStridedSlice S8388608x1 ![0, 0] · slices_S8388608x2_S8388608x1_0_0) : (⟨S8388608x2, .f32⟩ : BufTy).Contents (Elt F) → (⟨S8388608x1, .f32⟩ : BufTy).Contents (Elt F)),
    reshape main_v4 main_v5 rfl shapeCasts_S8388608x1_S8388608,
    nullary main_c_0 (constantI S_ 32 2#32),
    unary main_c_0 main_v6 (broadcastInDim S8388608 ![] bcast_S_S8388608 : (⟨S_, .i32⟩ : BufTy).Contents (Elt F) → (⟨S8388608, .i32⟩ : BufTy).Contents (Elt F)),
    binary main_arg2 main_v6 main_v7 (cmpi .eq : (⟨S8388608, .i32⟩ : BufTy).Contents (Elt F) → (⟨S8388608, .i32⟩ : BufTy).Contents (Elt F) → (⟨S8388608, .i1⟩ : BufTy).Contents (Elt F)),
    unary main_v1 main_v8 ((extractStridedSlice S8388608x1 ![0, 1] · slices_S8388608x2_S8388608x1_0_1) : (⟨S8388608x2, .f32⟩ : BufTy).Contents (Elt F) → (⟨S8388608x1, .f32⟩ : BufTy).Contents (Elt F)),
    reshape main_v8 main_v9 rfl shapeCasts_S8388608x1_S8388608,
    nullary main_cst (constant S_ .f32 0x00000000#32),
    unary main_cst main_call1_v0 ((id) : (⟨S_, .f32⟩ : BufTy).Contents (Elt F) → (⟨S_, .f32⟩ : BufTy).Contents (Elt F)),
    unary main_call1_v0 main_call1_v1 (((broadcastInDim S8388608 ![] bcast_S_S8388608)) : (⟨S_, .f32⟩ : BufTy).Contents (Elt F) → (⟨S8388608, .f32⟩ : BufTy).Contents (Elt F)),
    ternary main_v7 main_v9 main_call1_v1 main_v10 ((select) : (⟨S8388608, .i1⟩ : BufTy).Contents (Elt F) → (⟨S8388608, .f32⟩ : BufTy).Contents (Elt F) → (⟨S8388608, .f32⟩ : BufTy).Contents (Elt F) → (⟨S8388608, .f32⟩ : BufTy).Contents (Elt F)),
    ternary main_v3 main_v5 main_v10 main_v11 ((select) : (⟨S8388608, .i1⟩ : BufTy).Contents (Elt F) → (⟨S8388608, .f32⟩ : BufTy).Contents (Elt F) → (⟨S8388608, .f32⟩ : BufTy).Contents (Elt F) → (⟨S8388608, .f32⟩ : BufTy).Contents (Elt F)),
    nullary main_cst_1 (constant S_ .f32 0x00000000#32),
    binary main_v11 main_cst_1 main_v12 ((fun x v => Host.reduceAdd x v reducesTo_S8388608_S_d0 h_S_) : (⟨S8388608, .f32⟩ : BufTy).Contents (Elt F) → (⟨S_, .f32⟩ : BufTy).Contents (Elt F) → (⟨S_, .f32⟩ : BufTy).Contents (Elt F)),
    nullary main_cst_2 (constant S_ .f32 0x4B000000#32),
    binary main_v12 main_cst_2 main_v13 (Host.divf : (⟨S_, .f32⟩ : BufTy).Contents (Elt F) → (⟨S_, .f32⟩ : BufTy).Contents (Elt F) → (⟨S_, .f32⟩ : BufTy).Contents (Elt F)),
    unary main_v13 main_v14 (Host.negf : (⟨S_, .f32⟩ : BufTy).Contents (Elt F) → (⟨S_, .f32⟩ : BufTy).Contents (Elt F)) ]

attribute [local irreducible] Host.reduce Host.reduceAdd broadcastInDim maximumf subf Host.exp Host.log constant select in
/-- The two spellings are one list: a typed reference's transport of contents is the identity at these literal
    references, and no operation's body has to be opened to see it. -/
theorem ops_eq : (opsT : List (HloOp τ sig (Elt F))) = ops := rfl

/-- So the program is the sequence of the plainly spelt operations too. -/
theorem main_eq (c : Dev nD) : main (F := F) c = seq ops := (main_eqT c).trans (congrArg seq ops_eq)
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., unary_bufs_sub .., binary_bufs_sub .., unary_bufs_sub .., reshape_bufs_sub .., nullary_bufs_sub .., unary_bufs_sub .., binary_bufs_sub .., unary_bufs_sub .., reshape_bufs_sub .., nullary_bufs_sub .., unary_bufs_sub .., unary_bufs_sub .., ternary_bufs_sub .., ternary_bufs_sub .., nullary_bufs_sub .., binary_bufs_sub .., nullary_bufs_sub .., binary_bufs_sub .., unary_bufs_sub ..⟩

/-- The result as one term of the three argument arrays: the operations composed (minus the quotient by 2^23 of the sum
    over all samples of the label-selected log-softmax entries). -/
def res_main_v14 (m : (ℓ : Loc nD τ sig) → Buf (Elt F) ℓ) (c : Dev nD) : Buf (Elt F) ((c.tc : Thread nD τ).loc main_v14) :=
  Host.negf (Host.divf (Host.reduceAdd (select (cmpi .eq (m ((c.tc : Thread nD τ).loc main_arg2)) (broadcastInDim S8388608 ![] bcast_S_S8388608 (constantI S_ 32 1#32))) (shapeCast _ (extractStridedSlice S8388608x1 ![0, 0] (subf (subf (concatenate S8388608x2 1 [⟨S8388608x1, (m ((c.tc : Thread nD τ).loc main_arg0))⟩, ⟨S8388608x1, (m ((c.tc : Thread nD τ).loc main_arg1))⟩] concatenates_S8388608x1_S8388608x1_S8388608x2_d1) (broadcastInDim S8388608x2 ![0, 1] bcast_S8388608x1_S8388608x2_0_1 (broadcastInDim S8388608x1 ![0] bcast_S8388608_S8388608x1_0 (maximumf (broadcastInDim S8388608 ![] bcast_S_S8388608 (constant S_ .f32 0xFF800000#32)) (Host.reduce FloatOps.maximumf (concatenate S8388608x2 1 [⟨S8388608x1, (m ((c.tc : Thread nD τ).loc main_arg0))⟩, ⟨S8388608x1, (m ((c.tc : Thread nD τ).loc main_arg1))⟩] concatenates_S8388608x1_S8388608x1_S8388608x2_d1) (constant S_ .f32 0xFF800000#32) reducesTo_S8388608x2_S8388608_d1 h_S_))))) (broadcastInDim S8388608x2 ![0, 1] bcast_S8388608x1_S8388608x2_0_1 (Host.log (broadcastInDim S8388608x1 ![0] bcast_S8388608_S8388608x1_0 (Host.reduceAdd (Host.exp (subf (concatenate S8388608x2 1 [⟨S8388608x1, (m ((c.tc : Thread nD τ).loc main_arg0))⟩, ⟨S8388608x1, (m ((c.tc : Thread nD τ).loc main_arg1))⟩] concatenates_S8388608x1_S8388608x1_S8388608x2_d1) (broadcastInDim S8388608x2 ![0, 1] bcast_S8388608x1_S8388608x2_0_1 (broadcastInDim S8388608x1 ![0] bcast_S8388608_S8388608x1_0 (maximumf (broadcastInDim S8388608 ![] bcast_S_S8388608 (constant S_ .f32 0xFF800000#32)) (Host.reduce FloatOps.maximumf (concatenate S8388608x2 1 [⟨S8388608x1, (m ((c.tc : Thread nD τ).loc main_arg0))⟩, ⟨S8388608x1, (m ((c.tc : Thread nD τ).loc main_arg1))⟩] concatenates_S8388608x1_S8388608x1_S8388608x2_d1) (constant S_ .f32 0xFF800000#32) reducesTo_S8388608x2_S8388608_d1 h_S_)))))) (constant S_ .f32 0x00000000#32) reducesTo_S8388608x2_S8388608_d1 h_S_))))) slices_S8388608x2_S8388608x1_0_0) shapeCasts_S8388608x1_S8388608) (select (cmpi .eq (m ((c.tc : Thread nD τ).loc main_arg2)) (broadcastInDim S8388608 ![] bcast_S_S8388608 (constantI S_ 32 2#32))) (shapeCast _ (extractStridedSlice S8388608x1 ![0, 1] (subf (subf (concatenate S8388608x2 1 [⟨S8388608x1, (m ((c.tc : Thread nD τ).loc main_arg0))⟩, ⟨S8388608x1, (m ((c.tc : Thread nD τ).loc main_arg1))⟩] concatenates_S8388608x1_S8388608x1_S8388608x2_d1) (broadcastInDim S8388608x2 ![0, 1] bcast_S8388608x1_S8388608x2_0_1 (broadcastInDim S8388608x1 ![0] bcast_S8388608_S8388608x1_0 (maximumf (broadcastInDim S8388608 ![] bcast_S_S8388608 (constant S_ .f32 0xFF800000#32)) (Host.reduce FloatOps.maximumf (concatenate S8388608x2 1 [⟨S8388608x1, (m ((c.tc : Thread nD τ).loc main_arg0))⟩, ⟨S8388608x1, (m ((c.tc : Thread nD τ).loc main_arg1))⟩] concatenates_S8388608x1_S8388608x1_S8388608x2_d1) (constant S_ .f32 0xFF800000#32) reducesTo_S8388608x2_S8388608_d1 h_S_))))) (broadcastInDim S8388608x2 ![0, 1] bcast_S8388608x1_S8388608x2_0_1 (Host.log (broadcastInDim S8388608x1 ![0] bcast_S8388608_S8388608x1_0 (Host.reduceAdd (Host.exp (subf (concatenate S8388608x2 1 [⟨S8388608x1, (m ((c.tc : Thread nD τ).loc main_arg0))⟩, ⟨S8388608x1, (m ((c.tc : Thread nD τ).loc main_arg1))⟩] concatenates_S8388608x1_S8388608x1_S8388608x2_d1) (broadcastInDim S8388608x2 ![0, 1] bcast_S8388608x1_S8388608x2_0_1 (broadcastInDim S8388608x1 ![0] bcast_S8388608_S8388608x1_0 (maximumf (broadcastInDim S8388608 ![] bcast_S_S8388608 (constant S_ .f32 0xFF800000#32)) (Host.reduce FloatOps.maximumf (concatenate S8388608x2 1 [⟨S8388608x1, (m ((c.tc : Thread nD τ).loc main_arg0))⟩, ⟨S8388608x1, (m ((c.tc : Thread nD τ).loc main_arg1))⟩] concatenates_S8388608x1_S8388608x1_S8388608x2_d1) (constant S_ .f32 0xFF800000#32) reducesTo_S8388608x2_S8388608_d1 h_S_)))))) (constant S_ .f32 0x00000000#32) reducesTo_S8388608x2_S8388608_d1 h_S_))))) slices_S8388608x2_S8388608x1_0_1) shapeCasts_S8388608x1_S8388608) (broadcastInDim S8388608 ![] bcast_S_S8388608 (id (constant S_ .f32 0x00000000#32))))) (constant S_ .f32 0x00000000#32) reducesTo_S8388608_S_d0 h_S_) (constant S_ .f32 0x4B000000#32))

/-- The same term under the name of the program's first (and only) returned value. -/
abbrev res_out0 (m : (ℓ : Loc nD τ sig) → Buf (Elt F) ℓ) (c : Dev nD) : Buf (Elt F) ((c.tc : Thread nD τ).loc main_v14) := res_main_v14 m c

set_option maxHeartbeats 2000000 in
/-- On every device, for any float values, from any memory with zero counters: every weakly fair execution of the
    program terminates with the result buffer at the composed term of the argument arrays and the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v14) = res_main_v14 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v14).trans (by after_results_simp <;> rfl <;> (unfold res_main_v14; rfl)),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.ValueP

end
-- ==== Proof.LibConcatCols.lean ====
/-
  Two arrays with the same number of rows laid side by side.

  Joining an n × a array X and an n × b array Y along the second axis gives an n × c array (c = a + b) whose row r is row r
  of X followed by row r of Y.  Read at an index (r, k) of the joined array: for k = l < a it is X (r, l) (`left`), and for
  k = a + l it is Y (r, l) (`right`).  The index of the joined array is given with its two coordinates as hypotheses, so
  the lemmas apply however the index is spelt.
-/
import Idealize.ShloMosaic.Lib.Pipeline.Value
import Idealize.ShloMosaic.Lib.ValueIdx

namespace ConcatCols

open Idealize.ShloMosaic Idealize.ShloMosaic.ValueIdx

variable {α : Type} {n a b c : ℕ}

/-- A position of the joined row that falls in the first array's columns reads the first array. -/
theorem left (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ 1)
    (j : (⟨2, ![n, c]⟩ : Shape).Idx) (r : Fin n) (l : Fin a) (hr : (j 0).val = r.val) (hl : (j 1).val = l.val) :
    concatenate ⟨2, ![n, c]⟩ 1 [⟨⟨2, ![n, a]⟩, x⟩, ⟨⟨2, ![n, b]⟩, y⟩] h j = x (ix2 r l) :=
  concatenate_pair_apply_left (t := ⟨2, ![n, c]⟩) (1 : Fin 2) x y h j rfl (ix2 r l)
    (fun d => by match d with | ⟨0, _⟩ => exact hr.symm | ⟨1, _⟩ => exact hl.symm)

/-- A position a + l of the joined row reads position l of the second array's row. -/
theorem right (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ 1)
    (j : (⟨2, ![n, c]⟩ : Shape).Idx) (r : Fin n) (l : Fin b) (hr : (j 0).val = r.val) (hl : (j 1).val = a + l.val) :
    concatenate ⟨2, ![n, c]⟩ 1 [⟨⟨2, ![n, a]⟩, x⟩, ⟨⟨2, ![n, b]⟩, y⟩] h j = y (ix2 r l) :=
  concatenate_pair_apply_right (t := ⟨2, ![n, c]⟩) (1 : Fin 2) x y h j rfl rfl (ix2 r l)
    (fun d hd => by match d, hd with | ⟨0, _⟩, _ => exact hr.symm | ⟨1, _⟩, hd => exact absurd rfl hd)
    (by show l.val + a = (j 1).val; omega)

end ConcatCols
-- ==== Proof.RefValue.lean ====
/-
  The reference program's result is the all-at-once total `LabelLoss.refTotal` of the three argument arrays.

  The program joins the two score columns into rows [s_k, a_k], takes each row's maximum (a reduce with a maximum body
  started from the word of -∞, joined once more to the word of -∞: the larger of the two scores, since max ⊥ x = x),
  subtracts it from both entries, exponentiates, sums each row from the zero word, takes the logarithm and subtracts it
  from the shifted entries; it then selects entry 0 where the label is 1, entry 1 where the label is 2 and the zero word
  elsewhere, sums all samples from the zero word, divides by the word 2^23 and negates.

  Read at sample k, every stage is a function of s_k = x0 (k, 0), a_k = x1 (k, 0) and the label x2 (k) alone: the index
  maps of the broadcasts, slices and reshapes send (k, c) and (k) to one another (`i_c4` … `i_m9`), the joined row reads
  s_k at column 0 and a_k at column 1, and the selected contribution is exactly `LabelLoss.errR s_k a_k l_k` (`v11_at`).
  The sum over the rank-1 index set is the sum over k < 8388608 (`sum_idx1`), and the arrays read through
  `LabelLoss.flatF` / `LabelLoss.flatL` at k are the arrays at (k, 0) and (k).  No finiteness is used.
-/
import proofs.«132204_j34213709479939_2_alg».proof.Proof.RefRead
import proofs.«132204_j34213709479939_2_alg».proof.Proof.Spec
import proofs.«132204_j34213709479939_2_alg».proof.Proof.LibConcatCols
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx
open scoped BigOperators

/-! ### General facts: the word of -∞, a fold over two entries, a row's maximum, a sum over a rank-1 index set -/

/-- The word 0xFF800000 (sign 1, exponent field all ones, significand 0) denotes -∞. -/
theorem ofBits_neg_inf : Ideal.ofBits .f32 0xFF800000#32 = ⊥ := by
  simp [Ideal.ofBits, Ideal.ieee]

/-- A fold of a commutative, associative operation over two entries, from `b`. -/
theorem fold_univ_fin2 {α : Type} (f : α → α → α) [Std.Commutative f] [Std.Associative f] (b : α) (g : Fin 2 → α) :
    (Finset.univ : Finset (Fin 2)).fold f b g = f (g 0) (f (g 1) b) := by
  simp only [Fin.univ_succ, Finset.fold_cons, Finset.fold_map, Finset.univ_unique, Finset.fold_singleton]
  rfl

/-- The reduced index of row `k` with column `c` put back is (k, c). -/
theorem lift_col {n : ℕ} (h : (⟨2, ![n, 2]⟩ : Shape).Reduces [1] (⟨1, ![n]⟩ : Shape)) (k : Fin n)
    (c : Fin ((⟨2, ![n, 2]⟩ : Shape).size 1)) : h.lift (ix1 k) c = ix2 k (⟨c.val, c.isLt⟩ : Fin 2) := by
  funext d; apply Fin.ext
  fin_cases d <;> rfl

/-- A reduce with a maximum body over the two columns of an n × 2 array, at row `k`: the larger of the row's two
    entries, joined to the initial value. -/
theorem hostReduce_max_twoCols {n : ℕ} (y : (⟨2, ![n, 2]⟩ : Shape).Idx → EReal) (init : (⟨0, ![]⟩ : Shape).Idx → EReal)
    (h' : (⟨2, ![n, 2]⟩ : Shape).ReducesTo [1] (⟨1, ![n]⟩ : Shape))
    (h : (⟨2, ![n, 2]⟩ : Shape).Reduces [1] (⟨1, ![n]⟩ : Shape)) (hu : 0 < (⟨0, ![]⟩ : Shape).numel) (k : Fin n) :
    Host.reduce (FloatOps.maximumf (F := Ideal) (φ := .f32)) y init h' hu (ix1 k)
      = max (y (ix2 k (0 : Fin 2))) (max (y (ix2 k (1 : Fin 2))) (init (Shape.Idx.first hu))) := by
  rw [Host.reduce_eq_fold_single (FloatOps.maximumf (F := Ideal) (φ := .f32)) y init h' h hu]
  have hf : (y ∘ h.lift (ix1 k)) = fun c : Fin 2 => y (ix2 k c) := funext fun c => congrArg y (lift_col h k c)
  refine (congrArg (fun f => Finset.fold (FloatOps.maximumf (F := Ideal) (φ := .f32)) (init (Shape.Idx.first hu)) f
    (Finset.univ : Finset (Fin 2))) hf).trans ?_
  exact fold_univ_fin2 (FloatOps.maximumf (F := Ideal) (φ := .f32)) _ _

/-- A rank-1 index set is its coordinate's range … -/
def idxEquiv1 {n : ℕ} : Fin n ≃ (⟨1, ![n]⟩ : Shape).Idx where
  toFun k := ix1 k
  invFun j := j 0
  left_inv _ := rfl
  right_inv j := (eq_ix1 j).symm

/-- … so a sum over it is the sum over the coordinate. -/
theorem sum_idx1 {M : Type*} [AddCommMonoid M] {n : ℕ} (f : (⟨1, ![n]⟩ : Shape).Idx → M) :
    ∑ j, f j = ∑ k : Fin n, f (ix1 k) :=
  (Equiv.sum_comp (idxEquiv1 (n := n)) f).symm

/-! ### The index maps of the reference's stages, at an index given by its coordinates -/

section Indices
variable (k : Fin 8388608)

theorem i_c4 (c : Fin 2) : idx_main_call0_v4 (ix2 k c) = ix2 k (0 : Fin 1) := by
  funext a; match a with | ⟨0, _⟩ => rfl | ⟨1, _⟩ => rfl
theorem i_c3 : idx_main_call0_v3 (ix2 k (0 : Fin 1)) = ix1 k := by
  funext a; match a with | ⟨0, _⟩ => rfl
theorem i_c7 (c : Fin 2) : idx_main_call0_v7 (ix1 k) c = ix2 k c := by
  funext a; match a with | ⟨0, _⟩ => rfl | ⟨1, _⟩ => rfl
theorem i_c8 : idx_main_call0_v8 (ix2 k (0 : Fin 1)) = ix1 k := by
  funext a; match a with | ⟨0, _⟩ => rfl
theorem i_c10 (c : Fin 2) : idx_main_call0_v10 (ix2 k c) = ix2 k (0 : Fin 1) := by
  funext a; match a with | ⟨0, _⟩ => rfl | ⟨1, _⟩ => rfl
theorem i_m4 : idx_main_v4 (ix2 k (0 : Fin 1)) = ix2 k (0 : Fin 2) := by
  funext a; match a with | ⟨0, _⟩ => rfl | ⟨1, _⟩ => rfl
theorem i_m5 : idx_main_v5 (ix1 k) = ix2 k (0 : Fin 1) := by
  funext a; match a with | ⟨0, _⟩ => exact Fin.ext (Nat.div_one _) | ⟨1, _⟩ => rfl
theorem i_m8 : idx_main_v8 (ix2 k (0 : Fin 1)) = ix2 k (1 : Fin 2) := by
  funext a; match a with | ⟨0, _⟩ => rfl | ⟨1, _⟩ => rfl
theorem i_m9 : idx_main_v9 (ix1 k) = ix2 k (0 : Fin 1) := by
  funext a; match a with | ⟨0, _⟩ => exact Fin.ext (Nat.div_one _) | ⟨1, _⟩ => rfl

end Indices

/-! ### The stages at sample k -/

section Stages
variable (x0 x1 : (⟨S8388608x1, .f32⟩ : BufTy).Contents (Elt Ideal)) (x2 : (⟨S8388608, .i32⟩ : BufTy).Contents (Elt Ideal))
  (k : Fin 8388608)

/-- The first score of sample k. -/
abbrev sK : EReal := x0 (ix2 k (0 : Fin 1))
/-- The second score of sample k. -/
abbrev aK : EReal := x1 (ix2 k (0 : Fin 1))

/-- The joined row of sample k begins with its first score … -/
theorem v0_left : val_main_v0 (F := Ideal) x0 x1 (ix2 k (0 : Fin 2)) = x0 (ix2 k (0 : Fin 1)) := by
  unfold val_main_v0
  exact ConcatCols.left x0 x1 _ (ix2 k (0 : Fin 2)) k (0 : Fin 1) rfl rfl

/-- … and ends with its second score. -/
theorem v0_right : val_main_v0 (F := Ideal) x0 x1 (ix2 k (1 : Fin 2)) = x1 (ix2 k (0 : Fin 1)) := by
  unfold val_main_v0
  exact ConcatCols.right x0 x1 _ (ix2 k (1 : Fin 2)) k (0 : Fin 1) rfl rfl

/-- The row maximum, started from -∞ and joined once more to -∞, is the larger of the two scores. -/
theorem c_v2 : val_main_call0_v2 (F := Ideal) x0 x1 (ix1 k) = max (x0 (ix2 k (0 : Fin 1))) (x1 (ix2 k (0 : Fin 1))) := by
  rw [val_main_call0_v2_apply, val_main_call0_v1_apply, val_main_call0_cst_0_apply]
  unfold val_main_call0_v0
  rw [hostReduce_max_twoCols (val_main_v0 (F := Ideal) x0 x1) _ reducesTo_S8388608x2_S8388608_d1 (by decide) h_S_ k,
    val_main_call0_cst_apply, v0_left, v0_right]
  show max (Ideal.ofBits .f32 0xFF800000#32) (max (x0 _) (max (x1 _) (Ideal.ofBits .f32 0xFF800000#32))) = _
  rw [ofBits_neg_inf, max_bot_right, max_bot_left]

/-- The maximum broadcast back along the row. -/
theorem c_v4 (c : Fin 2) : val_main_call0_v4 (F := Ideal) x0 x1 (ix2 k c)
    = max (x0 (ix2 k (0 : Fin 1))) (x1 (ix2 k (0 : Fin 1))) := by
  rw [val_main_call0_v4_apply, i_c4, val_main_call0_v3_apply, i_c3, c_v2]

/-- The shifted first score. -/
theorem c_v5_0 : val_main_call0_v5 (F := Ideal) x0 x1 (ix2 k (0 : Fin 2))
    = x0 (ix2 k (0 : Fin 1)) - max (x0 (ix2 k (0 : Fin 1))) (x1 (ix2 k (0 : Fin 1))) := by
  rw [val_main_call0_v5_apply, v0_left, c_v4]; rfl

/-- The shifted second score. -/
theorem c_v5_1 : val_main_call0_v5 (F := Ideal) x0 x1 (ix2 k (1 : Fin 2))
    = x1 (ix2 k (0 : Fin 1)) - max (x0 (ix2 k (0 : Fin 1))) (x1 (ix2 k (0 : Fin 1))) := by
  rw [val_main_call0_v5_apply, v0_right, c_v4]; rfl

/-- The sum of the two shifted exponentials, started from the zero word. -/
theorem c_v7 : val_main_call0_v7 (F := Ideal) x0 x1 (ix1 k)
    = LabelLoss.zeroW + (Ideal.exp (x0 (ix2 k (0 : Fin 1)) - max (x0 (ix2 k (0 : Fin 1))) (x1 (ix2 k (0 : Fin 1))))
        + Ideal.exp (x1 (ix2 k (0 : Fin 1)) - max (x0 (ix2 k (0 : Fin 1))) (x1 (ix2 k (0 : Fin 1))))) := by
  rw [val_main_call0_v7_apply, Fin.sum_univ_two, i_c7, i_c7, val_main_call0_v6_apply, val_main_call0_v6_apply,
    c_v5_0, c_v5_1, val_main_call0_cst_1_apply]
  rfl

/-- The logarithm of that sum, broadcast back along the row. -/
theorem c_v10 (c : Fin 2) : val_main_call0_v10 (F := Ideal) x0 x1 (ix2 k c)
    = Ideal.log (LabelLoss.zeroW + (Ideal.exp (x0 (ix2 k (0 : Fin 1)) - max (x0 (ix2 k (0 : Fin 1))) (x1 (ix2 k (0 : Fin 1))))
        + Ideal.exp (x1 (ix2 k (0 : Fin 1)) - max (x0 (ix2 k (0 : Fin 1))) (x1 (ix2 k (0 : Fin 1)))))) := by
  rw [val_main_call0_v10_apply, i_c10, val_main_call0_v9_apply, val_main_call0_v8_apply, i_c8, c_v7]
  rfl

end Stages

section Contribution
variable (x0 x1 : (⟨S8388608x1, .f32⟩ : BufTy).Contents (Elt Ideal)) (x2 : (⟨S8388608, .i32⟩ : BufTy).Contents (Elt Ideal))
  (k : Fin 8388608)

/-- The log-probability of the first class: the shifted first score minus the logarithm. -/
theorem v1_0 : val_main_v1 (F := Ideal) x0 x1 (ix2 k (0 : Fin 2))
    = (x0 (ix2 k (0 : Fin 1)) - max (x0 (ix2 k (0 : Fin 1))) (x1 (ix2 k (0 : Fin 1))))
      - Ideal.log (LabelLoss.zeroW + (Ideal.exp (x0 (ix2 k (0 : Fin 1)) - max (x0 (ix2 k (0 : Fin 1))) (x1 (ix2 k (0 : Fin 1))))
        + Ideal.exp (x1 (ix2 k (0 : Fin 1)) - max (x0 (ix2 k (0 : Fin 1))) (x1 (ix2 k (0 : Fin 1)))))) := by
  rw [val_main_v1_apply, c_v5_0, c_v10]; rfl

/-- The log-probability of the second class: the shifted second score minus the logarithm. -/
theorem v1_1 : val_main_v1 (F := Ideal) x0 x1 (ix2 k (1 : Fin 2))
    = (x1 (ix2 k (0 : Fin 1)) - max (x0 (ix2 k (0 : Fin 1))) (x1 (ix2 k (0 : Fin 1))))
      - Ideal.log (LabelLoss.zeroW + (Ideal.exp (x0 (ix2 k (0 : Fin 1)) - max (x0 (ix2 k (0 : Fin 1))) (x1 (ix2 k (0 : Fin 1))))
        + Ideal.exp (x1 (ix2 k (0 : Fin 1)) - max (x0 (ix2 k (0 : Fin 1))) (x1 (ix2 k (0 : Fin 1)))))) := by
  rw [val_main_v1_apply, c_v5_1, c_v10]; rfl

/-- The selected contribution of sample k is the closed formula of its two scores and its label. -/
theorem v11_at : val_main_v11 (F := Ideal) x0 x1 x2 (ix1 k)
    = LabelLoss.errR (x0 (ix2 k (0 : Fin 1))) (x1 (ix2 k (0 : Fin 1))) (x2 (ix1 k)) := by
  rw [val_main_v11_apply, val_main_v3_apply, val_main_v2_apply, val_main_c_apply,
    val_main_v5_apply, i_m5, val_main_v4_apply, i_m4, v1_0,
    val_main_v10_apply, val_main_v7_apply, val_main_v6_apply, val_main_c_0_apply,
    val_main_v9_apply, i_m9, val_main_v8_apply, i_m8, v1_1,
    val_main_call1_v1_apply, val_main_call1_v0_apply, val_main_cst_apply]
  rfl

end Contribution

/-! ### The result -/

/-- The reference program's result is the all-at-once total of the flattened arrays. -/
theorem ref_value (x0 x1 : (⟨Cert.ReferenceIdeal.S8388608x1, .f32⟩ : BufTy).Contents (Elt Ideal)) (x2 : (⟨Cert.ReferenceIdeal.S8388608, .i32⟩ : BufTy).Contents (Elt Ideal)) :
    Cert.ReferenceIdeal.ReadP.val_main_v14 (F := Ideal) x0 x1 x2
      = fun _ => LabelLoss.refTotal (LabelLoss.flatF x0) (LabelLoss.flatF x1) (LabelLoss.flatL x2) := by
  funext i
  have hR : ∀ k : Fin 8388608,
      LabelLoss.errR (LabelLoss.flatF x0 k.val) (LabelLoss.flatF x1 k.val) (LabelLoss.flatL x2 k.val)
        = LabelLoss.errR (x0 (ix2 k (0 : Fin 1))) (x1 (ix2 k (0 : Fin 1))) (x2 (ix1 k)) := fun k => by
    rw [LabelLoss.flatF_lt, LabelLoss.flatF_lt, LabelLoss.flatL_lt]
  rw [val_main_v14_apply, val_main_v13_apply, val_main_v12_apply, val_main_cst_1_apply, val_main_cst_2_apply, sum_idx1,
    Finset.sum_congr rfl (fun k _ => v11_at x0 x1 x2 k)]
  unfold LabelLoss.refTotal
  rw [Finset.sum_congr rfl (fun k _ => hR k)]
  rfl

end Cert.ReferenceIdeal.RefValue

end
-- ==== Proof.LibTiles.lean ====
/-
  A sum over `T · B` consecutive indices, cut into `T` tiles of `B`, and a running total over tiles.

  `sum_tiles`: index `j < T · B` is `J · B + b` for exactly one tile `J < T` and one offset `b < B`, so the sum over all
  `j` is the sum over tiles of the sums over offsets.  `fold_tiles`: the running total that starts at `0 + a 0` and
  adds `a 1`, `a 2`, … in turn is, after `n` further steps, the sum of `a 0 … a n`.
-/
import Mathlib.Algebra.BigOperators.Fin
import Mathlib.Tactic.Ring

open scoped BigOperators

namespace Tiles

/-- The sum over tiles of the sums inside each tile is the sum over all indices. -/
theorem sum_tiles {M : Type*} [AddCommMonoid M] (T B : ℕ) (f : ℕ → M) :
    ∑ J : Fin T, ∑ b : Fin B, f (J.val * B + b.val) = ∑ j : Fin (T * B), f j.val := by
  rw [← (finProdFinEquiv (m := T) (n := B)).sum_comp (fun j => f j.val), Fintype.sum_prod_type]
  refine Finset.sum_congr rfl fun J _ => Finset.sum_congr rfl fun b _ => ?_
  refine congrArg f ?_
  show J.val * B + b.val = b.val + B * J.val
  ring

/-- The running total over tiles, started from `0 + a 0`, is the sum of the tiles' contributions. -/
theorem fold_tiles {M : Type*} [AddCommMonoid M] (a : ℕ → M) (n : ℕ) :
    (Nat.rec (motive := fun _ => M) (0 + a 0) (fun k x => x + a (k + 1)) n) = ∑ J ∈ Finset.range (n + 1), a J := by
  induction n with
  | zero => simp
  | succ k ih =>
    show (Nat.rec (motive := fun _ => M) (0 + a 0) (fun k x => x + a (k + 1)) k) + a (k + 1) = _
    rw [ih, Finset.sum_range_succ _ (k + 1)]

end Tiles
-- ==== Proof.LibRealSums.lean ====
/-
  Finite sums of real numbers, read on the extended reals.

  Coercion from the reals to the extended reals commutes with a finite sum (`coe_sum_real`: by induction on the index
  set, the coercion being additive), and a finite sum of products of extended reals each of which is a real number is the
  coercion of the real sum of the real products (`sum_mul_of_real`).  With these a computation on extended reals whose
  inputs are all finite can be carried out in the reals, where a factor moves across a sum and a nonzero divisor cancels.
-/
import Mathlib.Data.EReal.Operations
import Mathlib.Algebra.BigOperators.Fin

open scoped BigOperators

namespace RealSums

/-- A finite sum of real numbers, read on the extended reals, is the sum of the readings. -/
theorem coe_sum_real {ι : Type*} (s : Finset ι) (f : ι → ℝ) :
    ((∑ i ∈ s, f i : ℝ) : EReal) = ∑ i ∈ s, (f i : EReal) := by
  classical
  refine Finset.induction_on s (by simp) ?_
  intro a t ha ih
  rw [Finset.sum_insert ha, Finset.sum_insert ha, EReal.coe_add, ih]

/-- A finite sum of products of entries that are real numbers is the real sum of the real products. -/
theorem sum_mul_of_real {ι : Type*} [Fintype ι] (A B : ι → EReal) (a b : ι → ℝ)
    (hA : ∀ i, A i = (a i : EReal)) (hB : ∀ i, B i = (b i : EReal)) :
    ∑ i, A i * B i = ((∑ i, a i * b i : ℝ) : EReal) := by
  rw [coe_sum_real]
  exact Finset.sum_congr rfl (fun i _ => by rw [hA, hB, EReal.coe_mul])

end RealSums
-- ==== Proof.Algebra.lean ====
/-
  The law that joins the two totals of the labelled log-softmax loss, for real-valued scores.

  Per sample: with real scores x, y and m = max x y, both exponentials exp (x - m), exp (y - m) are positive reals,
  so the logarithm of their sum is an ordinary real logarithm; starting the inner sum from the zero word adds the
  real 0; and x - (m + L) = (x - m) - L.  Hence the two spellings of a sample's contribution are one and the same
  real number, whatever the label.

  The sums: sample (J·4096 + r)·128 + q, for J < 16, r < 4096, q < 128, runs once through every k < 8388608 (two
  regroupings into tiles, 16·4096 = 65536 and 65536·128 = 8388608), so the tile-by-tile sum is the all-at-once sum.

  The scalars: the word 0x34000000 is the real 2^-23 = 1/8388608 and the word 0x4B000000 the real 2^23 = 8388608;
  dividing by a nonzero real is multiplying by its reciprocal, and with A the real sum of the contributions
  (0 - A) · (1/8388608) = -((0 + A) · (1/8388608)).
-/
import proofs.«132204_j34213709479939_2_alg».proof.Proof.Spec
import proofs.«132204_j34213709479939_2_alg».proof.Proof.LibTiles
import proofs.«132204_j34213709479939_2_alg».proof.Proof.LibRealSums
import Idealize.ShloMosaic.PureOps.Ideal

noncomputable section

namespace LabelLoss

open Idealize.ShloMosaic
open scoped BigOperators

/-! ### The three constant words -/

/-- The word of +0.0 denotes 0. -/
theorem zeroW_eq : zeroW = 0 := by
  simp [zeroW, Ideal.ofBits, Ideal.ieee]

/-- The word 0x34000000 (exponent field 104, significand 0) denotes 2^23 · 2^(104 - 127 - 23) = 1/8388608. -/
theorem invN_eq : invN = ((1 / 8388608 : ℝ) : EReal) := by
  simp [invN, Ideal.ofBits, Ideal.ieee, -EReal.coe_mul]; norm_num

/-- The word 0x4B000000 (exponent field 150, significand 0) denotes 2^23 · 2^(150 - 127 - 23) = 8388608. -/
theorem bigN_eq : bigN = ((8388608 : ℝ) : EReal) := by
  simp [bigN, Ideal.ofBits, Ideal.ieee, -EReal.coe_mul]

/-! ### One sample -/

/-- A selection between two real numbers, read on the extended reals, is the selection between the readings. -/
theorem select_coe (c : BitVec 1) (x y : ℝ) :
    Scalar.select c (x : EReal) (y : EReal) = ((Scalar.select c x y : ℝ) : EReal) := by
  unfold Scalar.select
  split_ifs <;> rfl

/-- The larger of two real numbers, read on the extended reals, is the larger of the readings: the reading is
    monotone. -/
theorem coe_max_real (x y : ℝ) : ((max x y : ℝ) : EReal) = max (x : EReal) (y : EReal) :=
  EReal.coe_strictMono.monotone.map_max

/-- The logarithm of the two shifted exponentials, a real number. -/
def lse (x y : ℝ) : ℝ := Real.log (Real.exp (x - max x y) + Real.exp (y - max x y))

/-- On real scores the logarithm of the sum of the two shifted exponentials is the real logarithm: the sum is a
    positive real. -/
theorem log_part (x y : ℝ) :
    Ideal.log (Ideal.exp ((x : EReal) - max (x : EReal) (y : EReal)) + Ideal.exp ((y : EReal) - max (x : EReal) (y : EReal)))
      = ((lse x y : ℝ) : EReal) := by
  have hpos : ¬ (Real.exp (x - max x y) + Real.exp (y - max x y) ≤ 0) :=
    not_le.mpr (add_pos (Real.exp_pos _) (Real.exp_pos _))
  rw [← coe_max_real, ← EReal.coe_sub, ← EReal.coe_sub, Ideal.exp_coe, Ideal.exp_coe, ← EReal.coe_add,
    Ideal.log_coe, if_neg hpos]
  rfl

/-- A sample's contribution as a real number: the shifted score minus the logarithm, by the label. -/
def contrib (x y : ℝ) (l : BitVec 32) : ℝ :=
  Scalar.select (IntOp.cmpi .eq l 1#32) ((x - max x y) - lse x y)
    (Scalar.select (IntOp.cmpi .eq l 2#32) ((y - max x y) - lse x y) 0)

/-- The contribution with the log-sum-exp subtracted whole is the real contribution: x - (m + L) = (x - m) - L. -/
theorem errK_coe (x y : ℝ) (l : BitVec 32) : errK (x : EReal) (y : EReal) l = ((contrib x y l : ℝ) : EReal) := by
  unfold errK
  rw [log_part, ← coe_max_real, ← EReal.coe_add, ← EReal.coe_sub, ← EReal.coe_sub, zeroW_eq, ← EReal.coe_zero,
    select_coe, select_coe]
  unfold contrib
  rw [sub_add_eq_sub_sub, sub_add_eq_sub_sub]

/-- The contribution with the score shifted first and the inner sum started from the zero word is the real
    contribution: 0 + t = t. -/
theorem errR_coe (x y : ℝ) (l : BitVec 32) : errR (x : EReal) (y : EReal) l = ((contrib x y l : ℝ) : EReal) := by
  unfold errR
  rw [zeroW_eq, zero_add, log_part, ← coe_max_real, ← EReal.coe_sub, ← EReal.coe_sub, ← EReal.coe_sub,
    ← EReal.coe_sub, ← EReal.coe_zero, select_coe, select_coe]
  rfl

/-! ### The two sums range over the same samples -/

section Sums
variable {M : Type*} [AddCommMonoid M]

/-- A sum over the first m naturals, m written in two ways. -/
theorem sum_fin_cast {m n : ℕ} (h : m = n) (f : ℕ → M) : ∑ j : Fin m, f j.val = ∑ j : Fin n, f j.val := by
  subst h; rfl

/-- Sixteen tiles of 4096 rows of 128 lanes are the 8388608 samples, each once. -/
theorem tile_sum (f : ℕ → M) :
    ∑ J ∈ Finset.range 16, ∑ r : Fin 4096, ∑ q : Fin 128, f ((J * 4096 + r.val) * 128 + q.val)
      = ∑ k : Fin 8388608, f k.val := by
  have h1 : ∑ J ∈ Finset.range 16, ∑ r : Fin 4096, ∑ q : Fin 128, f ((J * 4096 + r.val) * 128 + q.val)
      = ∑ J : Fin 16, ∑ r : Fin 4096, ∑ q : Fin 128, f ((J.val * 4096 + r.val) * 128 + q.val) :=
    Finset.sum_range (fun J => ∑ r : Fin 4096, ∑ q : Fin 128, f ((J * 4096 + r.val) * 128 + q.val))
  have h2 := Tiles.sum_tiles 16 4096 (fun m => ∑ q : Fin 128, f (m * 128 + q.val))
  have h3 := sum_fin_cast (M := M) (show 16 * 4096 = 65536 by norm_num) (fun m => ∑ q : Fin 128, f (m * 128 + q.val))
  have h4 := Tiles.sum_tiles 65536 128 f
  have h5 := sum_fin_cast (M := M) (show 65536 * 128 = 8388608 by norm_num) f
  exact h1.trans (h2.trans (h3.trans (h4.trans h5)))

end Sums

/-! ### The two totals -/

/-- The tile-by-tile total on real scores, as a real number. -/
theorem kerTotal_coe (x y : ℕ → ℝ) (l : ℕ → BitVec 32) :
    kerTotal (fun n => (x n : EReal)) (fun n => (y n : EReal)) l
      = (((0 - ∑ k : Fin 8388608, contrib (x k.val) (y k.val) (l k.val)) * (1 / 8388608) : ℝ) : EReal) := by
  unfold kerTotal
  rw [tile_sum (fun n => errK (x n : EReal) (y n : EReal) (l n)),
    Finset.sum_congr rfl (fun k _ => errK_coe (x k.val) (y k.val) (l k.val)),
    ← RealSums.coe_sum_real, zeroW_eq, invN_eq, ← EReal.coe_zero, ← EReal.coe_sub, ← EReal.coe_mul]

/-- The all-at-once total on real scores, as a real number. -/
theorem refTotal_coe (x y : ℕ → ℝ) (l : ℕ → BitVec 32) :
    refTotal (fun n => (x n : EReal)) (fun n => (y n : EReal)) l
      = ((-((0 + ∑ k : Fin 8388608, contrib (x k.val) (y k.val) (l k.val)) * (1 / 8388608)) : ℝ) : EReal) := by
  unfold refTotal
  rw [Finset.sum_congr rfl (fun k _ => errR_coe (x k.val) (y k.val) (l k.val)),
    ← RealSums.coe_sum_real, zeroW_eq, bigN_eq, Ideal.div_coe (by norm_num : (8388608 : ℝ) ≠ 0),
    ← EReal.coe_zero, ← EReal.coe_add, ← EReal.coe_mul, ← EReal.coe_neg]

/-- On real-valued scores the tile-by-tile total and the all-at-once total are the same extended real. -/
theorem totals_eq (s a : ℕ → EReal) (l : ℕ → BitVec 32)
    (hs : ∀ n, ∃ r : ℝ, s n = (r : EReal)) (ha : ∀ n, ∃ r : ℝ, a n = (r : EReal)) :
    kerTotal s a l = refTotal s a l := by
  choose x hx using hs
  choose y hy using ha
  obtain rfl : s = fun n => (x n : EReal) := funext hx
  obtain rfl : a = fun n => (y n : EReal) := funext hy
  rw [kerTotal_coe, refTotal_coe]
  congr 1
  ring

end LabelLoss

end
-- ==== Proof.Finite.lean ====
/-
  From the precondition "every float input is finite" to "every entry of the two score arrays is a real number".

  The printed precondition is the conjunction, as one-bit words, of two "all" reductions: all |x0| < +inf and
  all |x1| < +inf, where |x| is max x (-x) and +inf is the word 0x7F800000.  Its value being the bit 1 at the one
  index of the rank-0 shape gives both reductions the value 1; a reduction by "and" that came out 1 met the bit 1
  at every entry; the bit of a comparison is 1 exactly when the comparison holds; and an extended real x with
  max x (-x) < +inf is neither +inf (then max x (-x) = +inf) nor -inf (then -x = +inf), hence the image of a real.
  Nothing here depends on the number of entries: every step is at one symbolic index i.
-/
import proofs.«132204_j34213709479939_2_alg».proof.Pre_finite_inputs
import proofs.«132204_j34213709479939_2_alg».proof.Proof.Gen.Pre_finite_inputs
import Idealize.ShloMosaic.PureOps.Ideal
import Idealize.ShloMosaic.Lib.ValueIdx
import Idealize.ShloMosaic.Lib.ReduceAll
import Mathlib.Data.EReal.Basic

namespace Cert.Pre_finite_inputs.Real

open Idealize.ShloMosaic

/-- The rank-0 shape has exactly one index: an index is a function out of the empty set of axes. -/
instance subsingleton_S_ : Subsingleton S_.Idx := ⟨fun _ _ => funext fun d => d.elim0⟩

/-- The word 0x7F800000 (sign 0, exponent all ones, fraction 0) denotes +inf. -/
theorem infW_eq_top : Ideal.ofBits .f32 0x7F800000#32 = (⊤ : EReal) := by
  simp [Ideal.ofBits, Ideal.ieee]

/-- The bit of a decided proposition is 1 exactly when the proposition holds. -/
theorem ofBool_decide_eq_one (P : Prop) [Decidable P] : BitVec.ofBool (decide P) = 1#1 ↔ P := by
  by_cases hP : P <;> simp [hP]

/-- An extended real whose absolute value max x (-x) is below +inf is the image of a real number:
    at +inf the maximum is +inf, at -inf the negation is +inf. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- One entry read back: the comparison bit |x| < (the word of +inf) being 1 makes x real. -/
theorem real_of_cmp (x : EReal)
    (h : Ideal.cmp .olt (max x (-x)) (Ideal.ofBits .f32 0x7F800000#32) = 1#1) : ∃ r : ℝ, x = (r : EReal) := by
  rw [infW_eq_top] at h
  exact real_of_abs_lt_top x ((ofBool_decide_eq_one _).1 h)

/-- One "all": the reduction by "and" of the entrywise comparison |x i| < +inf being 1 at the one result index
    makes every entry of x real. -/
theorem real_of_all (x : FVec Ideal S8388608x1 .f32) (init : IVec S_ 1) (h : S8388608x1.ReducesTo [0, 1] S_)
    (hu : 0 < S_.numel) (hb : S_.BroadcastsInDim S8388608x1 (![] : Fin 0 → Fin S8388608x1.rank)) (j : S_.Idx)
    (e : Host.reduce IntOp.andi
          (cmpf (F := Ideal) .olt (Host.absf x) (broadcastInDim S8388608x1 ![] hb (constant (F := Ideal) S_ .f32 0x7F800000#32)))
          init h hu j = 1#1) (i : S8388608x1.Idx) : ∃ r : ℝ, x i = (r : EReal) :=
  real_of_cmp (x i) (Host.reduce_andi_all _ init h hu j e i)

theorem real_of_pre (x0 x1 : FVec Ideal Cert.Pre_finite_inputs.S8388608x1 .f32) (x2 : IVec Cert.Pre_finite_inputs.S8388608 32)
    (h : Cert.Pre_finite_inputs.fn (F := Ideal) x0 x1 x2 = fun _ => 1#1) :
    (∀ i, ∃ r : ℝ, x0 i = (r : EReal)) ∧ (∀ i, ∃ r : ℝ, x1 i = (r : EReal)) := by
  have h0 := congrFun h ValueIdx.ix0
  dsimp only [Cert.Pre_finite_inputs.fn, andi] at h0
  obtain ⟨ha, hb⟩ := IntOp.andi_eq_one.1 h0
  exact ⟨fun i => real_of_all x0 _ _ _ _ _ ha i, fun i => real_of_all x1 _ _ _ _ _ hb i⟩

end Cert.Pre_finite_inputs.Real
-- ==== Proof.lean ====
/-
  The kernel and its reference compute one function of the three argument arrays, over the extended reals.

  The kernel streams the 8388608 samples through 16 tiles of 4096 rows by 128 lanes, keeps a running total of the
  samples' contributions (log p(syn) where the label is 1, log p(ant) where it is 2, nothing otherwise), and at the
  last tile writes out (0 - total) · 2^-23.  The reference takes the log-softmax of each sample's two scores, selects by
  the label, sums all samples at once, divides by 2^23 and negates.  Per sample the two spellings of the log-softmax
  entry, s - (M + L) and (s - M) - L, agree when the scores are real numbers, which the precondition grants; a sum does
  not depend on its grouping into tiles; and multiplying the negated total by 2^-23 is negating its quotient by 2^23.
  The three programs' runs terminate with the argument arrays unchanged; the idealization rewrote nothing.
-/
import proofs.«132204_j34213709479939_2_alg».proof.Defs
import proofs.«132204_j34213709479939_2_alg».proof.Proof.Gen.Kernel
import proofs.«132204_j34213709479939_2_alg».proof.Proof.Gen.Kernel.Frame
import proofs.«132204_j34213709479939_2_alg».proof.Proof.Gen.KernelIdeal
import proofs.«132204_j34213709479939_2_alg».proof.Proof.Gen.KernelIdeal.Frame
import proofs.«132204_j34213709479939_2_alg».proof.Proof.Gen.ReferenceIdeal
import proofs.«132204_j34213709479939_2_alg».proof.Proof.Gen.Pre_finite_inputs
import proofs.«132204_j34213709479939_2_alg».proof.Proof.Spec
import proofs.«132204_j34213709479939_2_alg».proof.Proof.Final
import proofs.«132204_j34213709479939_2_alg».proof.Proof.RefRun
import proofs.«132204_j34213709479939_2_alg».proof.Proof.RefRead
import proofs.«132204_j34213709479939_2_alg».proof.Proof.RefValue
import proofs.«132204_j34213709479939_2_alg».proof.Proof.Algebra
import proofs.«132204_j34213709479939_2_alg».proof.Proof.Finite
import Idealize.ShloMosaic.Adequacy
import Idealize.ShloMosaic.Init

noncomputable section

namespace Cert.Proof

open Idealize.ShloMosaic Idealize.SL.Sem

/-- An array of real entries, read by sample number (zero beyond the last sample), has real values. -/
theorem flat_real (x : (⟨2, ![8388608, 1]⟩ : Shape).Idx → EReal) (h : ∀ i, ∃ r : ℝ, x i = (r : EReal)) (n : ℕ) :
    ∃ r : ℝ, LabelLoss.flatF x n = (r : EReal) := by
  unfold LabelLoss.flatF
  split
  · exact h _
  · exact ⟨0, rfl⟩

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end with the loss of the (agreeing) argument arrays: the kernel's run gives the tile-by-tile formula,
    the reference's run the all-at-once formula, and for real scores the two are equal. -/
theorem algebraic : Cert.algebraic_KernelIdeal_ReferenceIdeal := by
  intro m ρ m' ρ' hpre hagree
  refine ⟨fun c => fun _ => Cert.KernelIdeal.Final.loss m c, Cert.KernelIdeal.Final.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v14_eq, Cert.ReferenceIdeal.RefValue.ref_value,
    (hagree c).1, (hagree c).2.1, (hagree c).2.2]
  obtain ⟨hs, ha⟩ := Cert.Pre_finite_inputs.Real.real_of_pre _ _ _ (hpre c)
  funext _
  exact (LabelLoss.totals_eq _ _ _ (flat_real _ hs) (flat_real _ ha)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
